-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S50000 : Shape := ⟨1, ![50000]⟩
abbrev S100000 : Shape := ⟨1, ![100000]⟩
abbrev S3x64x64 : Shape := ⟨3, ![3, 64, 64]⟩
abbrev S3x64 : Shape := ⟨2, ![3, 64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg7 : FVec F S128 .f32) (main_arg8 : FVec F S128x10 .f32) (main_arg9 : FVec F S10 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg8
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg9
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x64 .f32) (main_arg1 : IVec S2x1000000 32) (main_arg2 : IVec S50000 32) (main_arg3 : IVec S100000 32) (main_arg4 : FVec F S3x64x64 .f32) (main_arg5 : FVec F S3x64 .f32) (main_arg6 : FVec F S64x128 .f32) (main_arg7 : FVec F S128 .f32) (main_arg8 : FVec F S128x10 .f32) (main_arg9 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg4
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg5
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64x128 .f32 := Host.absf main_arg6
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg7 main_arg8 main_arg9 main_v13 main_v16
-- ==== Kernel.lean ====
abbrev S100000x64 : Shape := ⟨2, ![100000, 64]⟩
abbrev S2x1000000 : Shape := ⟨2, ![2, 1000000]⟩
abbrev S50000 : Shape := ⟨1, ![50000]⟩
abbrev S100000 : Shape := ⟨1, ![100000]⟩
abbrev S3x64x64 : Shape := ⟨3, ![3, 64, 64]⟩
abbrev S3x64 : Shape := ⟨2, ![3, 64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1x64x64 : Shape := ⟨3, ![1, 64, 64]⟩
abbrev S64x64 : Shape := ⟨2, ![64, 64]⟩
abbrev S10000x64 : Shape := ⟨2, ![10000, 64]⟩
abbrev S1100000x64 : Shape := ⟨2, ![1100000, 64]⟩
abbrev S4400x64 : Shape := ⟨2, ![4400, 64]⟩
abbrev S4400x1 : Shape := ⟨2, ![4400, 1]⟩
abbrev S1x64 : Shape := ⟨2, ![1, 64]⟩
abbrev S64 : Shape := ⟨1, ![64]⟩
abbrev S50000x1 : Shape := ⟨2, ![50000, 1]⟩
abbrev S50000x64 : Shape := ⟨2, ![50000, 64]⟩
abbrev S64x1 : Shape := ⟨2, ![64, 1]⟩
abbrev S1x128 : Shape := ⟨2, ![1, 128]⟩
abbrev S1x10 : Shape := ⟨2, ![1, 10]⟩
abbrev S64x10 : Shape := ⟨2, ![64, 10]⟩

abbrev nBuf : Space → Nat
  | .hbm => 139
  | .vmem => 55
  | .smem => 0
  | _ => 0

abbrev hbmTy0_0 (i : Nat) : BufTy := match i % 128 with
  | 0 => ⟨S100000x64, .f32⟩
  | 1 => ⟨S2x1000000, .i32⟩
  | 2 => ⟨S50000, .i32⟩
  | 3 => ⟨S100000, .i32⟩
  | 4 => ⟨S3x64x64, .f32⟩
  | 5 => ⟨S3x64, .f32⟩
  | 6 => ⟨S64x128, .f32⟩
  | 7 => ⟨S128, .f32⟩
  | 8 => ⟨S128x10, .f32⟩
  | 9 => ⟨S10, .f32⟩
  | 10 => ⟨S100000, .i32⟩
  | 11 => ⟨S1x1000000, .i32⟩
  | 12 => ⟨S1000000, .i32⟩
  | 13 => ⟨S1100000, .i32⟩
  | 14 => ⟨S1x1000000, .i32⟩
  | 15 => ⟨S1000000, .i32⟩
  | 16 => ⟨S1100000, .i32⟩
  | 17 => ⟨S_, .f32⟩
  | 18 => ⟨S1100000, .f32⟩
  | 19 => ⟨S_, .f32⟩
  | 20 => ⟨S100000, .f32⟩
  | 21 => ⟨S1100000x1, .i32⟩
  | 22 => ⟨S100000, .f32⟩
  | 23 => ⟨S100000, .f32⟩
  | 24 => ⟨S_, .i32⟩
  | 25 => ⟨S1100000, .i32⟩
  | 26 => ⟨S1100000, .i1⟩
  | 27 => ⟨S_, .i32⟩
  | 28 => ⟨S1100000, .i32⟩
  | 29 => ⟨S1100000, .i32⟩
  | 30 => ⟨S1100000, .i32⟩
  | 31 => ⟨S1100000x1, .i32⟩
  | 32 => ⟨S1100000, .f32⟩
  | 33 => ⟨S_, .i32⟩
  | 34 => ⟨S1100000, .i32⟩
  | 35 => ⟨S1100000, .i1⟩
  | 36 => ⟨S_, .i32⟩
  | 37 => ⟨S1100000, .i32⟩
  | 38 => ⟨S1100000, .i32⟩
  | 39 => ⟨S1100000, .i32⟩
  | 40 => ⟨S1100000x1, .i32⟩
  | 41 => ⟨S1100000, .f32⟩
  | 42 => ⟨S1100000, .f32⟩
  | 43 => ⟨S1100000x1, .f32⟩
  | 44 => ⟨S1x64x64, .f32⟩
  | 45 => ⟨S64x64, .f32⟩
  | 46 => ⟨S100000x64, .f32⟩
  | 47 => ⟨S_, .i32⟩
  | 48 => ⟨S1100000, .i32⟩
  | 49 => ⟨S1100000, .i1⟩
  | 50 => ⟨S_, .i32⟩
  | 51 => ⟨S1100000, .i32⟩
  | 52 => ⟨S1100000, .i32⟩
  | 53 => ⟨S1100000, .i32⟩
  | 54 => ⟨S1100000x1, .i32⟩
  | 55 => ⟨S1100000x64, .f32⟩
  | 56 => ⟨S1100000x64, .f32⟩
  | 57 => ⟨S_, .f32⟩
  | 58 => ⟨S100000x64, .f32⟩
  | 59 => ⟨S1100000x1, .i32⟩
  | 60 => ⟨S100000x64, .f32⟩
  | 61 => ⟨S1x64, .f32⟩
  | 62 => ⟨S64, .f32⟩
  | 63 => ⟨S1x64, .f32⟩
  | 64 => ⟨S100000x64, .f32⟩
  | 65 => ⟨S1x64x64, .f32⟩
  | 66 => ⟨S64x64, .f32⟩
  | 67 => ⟨S100000x64, .f32⟩
  | 68 => ⟨S_, .i32⟩
  | 69 => ⟨S1100000, .i32⟩
  | 70 => ⟨S1100000, .i1⟩
  | 71 => ⟨S_, .i32⟩
  | 72 => ⟨S1100000, .i32⟩
  | 73 => ⟨S1100000, .i32⟩
  | 74 => ⟨S1100000, .i32⟩
  | 75 => ⟨S1100000x1, .i32⟩
  | 76 => ⟨S1100000x64, .f32⟩
  | 77 => ⟨S1100000x64, .f32⟩
  | 78 => ⟨S_, .f32⟩
  | 79 => ⟨S100000x64, .f32⟩
  | 80 => ⟨S1100000x1, .i32⟩
  | 81 => ⟨S100000x64, .f32⟩
  | 82 => ⟨S1x64, .f32⟩
  | 83 => ⟨S64, .f32⟩
  | 84 => ⟨S1x64, .f32⟩
  | 85 => ⟨S100000x64, .f32⟩
  | 86 => ⟨S1x64x64, .f32⟩
  | 87 => ⟨S64x64, .f32⟩
  | 88 => ⟨S100000x64, .f32⟩
  | 89 => ⟨S_, .i32⟩
  | 90 => ⟨S1100000, .i32⟩
  | 91 => ⟨S1100000, .i1⟩
  | 92 => ⟨S_, .i32⟩
  | 93 => ⟨S1100000, .i32⟩
  | 94 => ⟨S1100000, .i32⟩
  | 95 => ⟨S1100000, .i32⟩
  | 96 => ⟨S1100000x1, .i32⟩
  | 97 => ⟨S1100000x64, .f32⟩
  | 98 => ⟨S1100000x64, .f32⟩
  | 99 => ⟨S_, .f32⟩
  | 100 => ⟨S100000x64, .f32⟩
  | 101 => ⟨S1100000x1, .i32⟩
  | 102 => ⟨S100000x64, .f32⟩
  | 103 => ⟨S1x64, .f32⟩
  | 104 => ⟨S64, .f32⟩
  | 105 => ⟨S1x64, .f32⟩
  | 106 => ⟨S100000x64, .f32⟩
  | 107 => ⟨S_, .i32⟩
  | 108 => ⟨S50000, .i32⟩
  | 109 => ⟨S50000, .i1⟩
  | 110 => ⟨S_, .i32⟩
  | 111 => ⟨S50000, .i32⟩
  | 112 => ⟨S50000, .i32⟩
  | 113 => ⟨S50000, .i32⟩
  | 114 => ⟨S50000x1, .i32⟩
  | 115 => ⟨S50000x64, .f32⟩
  | 116 => ⟨S_, .i32⟩
  | 117 => ⟨S50000, .i32⟩
  | 118 => ⟨S50000, .i1⟩
  | 119 => ⟨S_, .i32⟩
  | 120 => ⟨S50000, .i32⟩
  | 121 => ⟨S50000, .i32⟩
  | 122 => ⟨S50000, .i32⟩
  | 123 => ⟨S50000x1, .i32⟩
  | 124 => ⟨S50000, .i32⟩
  | 125 => ⟨S_, .f32⟩
  | 126 => ⟨S64x64, .f32⟩
  | 127 => ⟨S50000x1, .i32⟩
  | _ => ⟨S100000x64, .f32⟩

abbrev hbmTy0_1 (i : Nat) : BufTy := match i % 128 with
  | 0 => ⟨S64x64, .f32⟩
  | 1 => ⟨S_, .f32⟩
  | 2 => ⟨S50000, .f32⟩
  | 3 => ⟨S_, .f32⟩
  | 4 => ⟨S64, .f32⟩
  | 5 => ⟨S50000x1, .i32⟩
  | 6 => ⟨S64, .f32⟩
  | 7 => ⟨S64x1, .f32⟩
  | 8 => ⟨S1x128, .f32⟩
  | 9 => ⟨S1x10, .f32⟩
  | 10 => ⟨S64x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S4400x64, .f32⟩
  | .local _ .vmem, ⟨6, _⟩ => ⟨S4400x64, .f32⟩
  | .local _ .vmem, ⟨7, _⟩ => ⟨S4400x1, .f32⟩
  | .local _ .vmem, ⟨8, _⟩ => ⟨S4400x1, .f32⟩
  | .local _ .vmem, ⟨9, _⟩ => ⟨S4400x64, .f32⟩
  | .local _ .vmem, ⟨10, _⟩ => ⟨S4400x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S4400x64, .f32⟩
  | .local _ .vmem, ⟨22, _⟩ => ⟨S4400x64, .f32⟩
  | .local _ .vmem, ⟨23, _⟩ => ⟨S4400x1, .f32⟩
  | .local _ .vmem, ⟨24, _⟩ => ⟨S4400x1, .f32⟩
  | .local _ .vmem, ⟨25, _⟩ => ⟨S4400x64, .f32⟩
  | .local _ .vmem, ⟨26, _⟩ => ⟨S4400x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S10000x64, .f32⟩
  | .local _ .vmem, ⟨36, _⟩ => ⟨S10000x64, .f32⟩
  | .local _ .vmem, ⟨37, _⟩ => ⟨S4400x64, .f32⟩
  | .local _ .vmem, ⟨38, _⟩ => ⟨S4400x64, .f32⟩
  | .local _ .vmem, ⟨39, _⟩ => ⟨S4400x1, .f32⟩
  | .local _ .vmem, ⟨40, _⟩ => ⟨S4400x1, .f32⟩
  | .local _ .vmem, ⟨41, _⟩ => ⟨S4400x64, .f32⟩
  | .local _ .vmem, ⟨42, _⟩ => ⟨S4400x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S64x64, .f32⟩
  | .local _ .vmem, ⟨49, _⟩ => ⟨S64x1, .f32⟩
  | .local _ .vmem, ⟨50, _⟩ => ⟨S64x128, .f32⟩
  | .local _ .vmem, ⟨51, _⟩ => ⟨S1x128, .f32⟩
  | .local _ .vmem, ⟨52, _⟩ => ⟨S128x10, .f32⟩
  | .local _ .vmem, ⟨53, _⟩ => ⟨S1x10, .f32⟩
  | .local _ .vmem, ⟨54, _⟩ => ⟨S64x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_10 : Ref sig .tc := ⟨.hbm, 89, rfl⟩
abbrev main_v67 : Ref sig .tc := ⟨.hbm, 90, rfl⟩
abbrev main_v68 : Ref sig .tc := ⟨.hbm, 91, rfl⟩
abbrev main_c_11 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_13 : Ref sig .tc := ⟨.hbm, 107, rfl⟩
abbrev main_v82 : Ref sig .tc := ⟨.hbm, 108, rfl⟩
abbrev main_v83 : Ref sig .tc := ⟨.hbm, 109, rfl⟩
abbrev main_c_14 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_15 : Ref sig .tc := ⟨.hbm, 116, rfl⟩
abbrev main_v89 : Ref sig .tc := ⟨.hbm, 117, rfl⟩
abbrev main_v90 : Ref sig .tc := ⟨.hbm, 118, rfl⟩
abbrev main_c_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_17 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_18 : Ref sig .tc := ⟨.hbm, 129, rfl⟩
abbrev main_v99 : Ref sig .tc := ⟨.hbm, 130, rfl⟩
abbrev main_cst_19 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc9_stg0_0 : Ref sig .tc := ⟨.vmem, 48, rfl⟩
abbrev cc9_stg1_0 : Ref sig .tc := ⟨.vmem, 49, rfl⟩
abbrev cc9_stg2_0 : Ref sig .tc := ⟨.vmem, 50, rfl⟩
abbrev cc9_stg3_0 : Ref sig .tc := ⟨.vmem, 51, rfl⟩
abbrev cc9_stg4_0 : Ref sig .tc := ⟨.vmem, 52, rfl⟩
abbrev cc9_stg5_0 : Ref sig .tc := ⟨.vmem, 53, rfl⟩
abbrev cc9_stg6_0 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47
abbrev cc9_sem0_0 : DmaSem sig := 48
abbrev cc9_sem1_0 : DmaSem sig := 49
abbrev cc9_sem2_0 : DmaSem sig := 50
abbrev cc9_sem3_0 : DmaSem sig := 51
abbrev cc9_sem4_0 : DmaSem sig := 52
abbrev cc9_sem5_0 : DmaSem sig := 53
abbrev cc9_sem6_0 : DmaSem sig := 54

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4400x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4400x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![250], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4400x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4400x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4400x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S64x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S64x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S64x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x10 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x10 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S64x10 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  slices_S3x64x64_S1x64x64_0_0_0 : S3x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4400x64_S4400x64_0_0 : ∀ a, (![0, 0] : Fin 2 → Nat) a + S4400x64.size a ≤ S4400x64.size a
  h_S4400x64 : 0 < S4400x64.numel
  shapeCasts_S4400x64_S4400x64 : S4400x64.ShapeCasts S4400x64
  inb_S4400x1_S4400x1_0_0 : ∀ a, (![0, 0] : Fin 2 → Nat) a + S4400x1.size a ≤ S4400x1.size a
  h_S4400x1 : 0 < S4400x1.numel
  shapeCasts_S4400x1_S4400x1 : S4400x1.ShapeCasts S4400x1
  broadcasts_S4400x1_S4400x64 : S4400x1.Broadcasts S4400x64
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S50000 : S_.BroadcastsInDim S50000 (![] : Fin 0 → Fin S50000.rank)
  bcast_S50000_S50000x1_0 : S50000.BroadcastsInDim S50000x1 (![0] : Fin 1 → Fin S50000x1.rank)
  bcast_S_S64x64 : S_.BroadcastsInDim S64x64 (![] : Fin 0 → Fin S64x64.rank)
  bcast_S_S64 : S_.BroadcastsInDim S64 (![] : Fin 0 → Fin S64.rank)
  shapeCasts_S64_S64x1 : S64.ShapeCasts S64x1
  shapeCasts_S128_S1x128 : S128.ShapeCasts S1x128
  shapeCasts_S10_S1x10 : S10.ShapeCasts S1x10
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x64_S64x64_S10000x64_1_0_0_1_n_n_wf : DotDims.WF S10000x64 S64x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  gather_S100000x64_S50000x1_S50000x64_1_0_n_n_0_1_164_wf : GatherDims.WF S100000x64 S50000x1 S50000x64 [1] [0] [] [0] [] 1 ![1, 64]
  gather_S100000_S50000x1_S50000_n_0_n_n_0_1_1_wf : GatherDims.WF S100000 S50000x1 S50000 [] [0] [] [0] [] 1 ![1]
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x128_S64x128_1_0_0_1_n_n_wf : DotDims.WF S64x64 S64x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4400x64.size a ≤ S1100000x64.size a
  hwx1_0 : ∀ i : grid1.Coords, EltTy.bits .f32 = 32 ∨ (Rect.block (s := S1100000x64) S4400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4400x1.size a ≤ S1100000x1.size a
  hwx1_1 : ∀ i : grid1.Coords, EltTy.bits .f32 = 32 ∨ (Rect.block (s := S1100000x1) S4400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4400x64.size a ≤ S1100000x64.size a
  hwx1_2 : ∀ i : grid1.Coords, EltTy.bits .f32 = 32 ∨ (Rect.block (s := S1100000x64) S4400x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4400x64.size a ≤ S1100000x64.size a
  hwx4_0 : ∀ i : grid4.Coords, EltTy.bits .f32 = 32 ∨ (Rect.block (s := S1100000x64) S4400x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4400x1.size a ≤ S1100000x1.size a
  hwx4_1 : ∀ i : grid4.Coords, EltTy.bits .f32 = 32 ∨ (Rect.block (s := S1100000x1) S4400x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4400x64.size a ≤ S1100000x64.size a
  hwx4_2 : ∀ i : grid4.Coords, EltTy.bits .f32 = 32 ∨ (Rect.block (s := S1100000x64) S4400x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4400x64.size a ≤ S1100000x64.size a
  hwx7_0 : ∀ i : grid7.Coords, EltTy.bits .f32 = 32 ∨ (Rect.block (s := S1100000x64) S4400x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4400x1.size a ≤ S1100000x1.size a
  hwx7_1 : ∀ i : grid7.Coords, EltTy.bits .f32 = 32 ∨ (Rect.block (s := S1100000x1) S4400x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4400x64.size a ≤ S1100000x64.size a
  hwx7_2 : ∀ i : grid7.Coords, EltTy.bits .f32 = 32 ∨ (Rect.block (s := S1100000x64) S4400x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S100000x64.size a
  hwx8_2 : ∀ i : grid8.Coords, EltTy.bits .f32 = 32 ∨ (Rect.block (s := S100000x64) S10000x64.size (cc8_transform_2 i) (hinb8_2 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S64x64.size a ≤ S64x64.size a
  hwx9_0 : ∀ i : grid9.Coords, EltTy.bits .f32 = 32 ∨ (Rect.block (s := S64x64) S64x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x1.size a ≤ S64x1.size a
  hwx9_1 : ∀ i : grid9.Coords, EltTy.bits .f32 = 32 ∨ (Rect.block (s := S64x1) S64x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x128.size a ≤ S64x128.size a
  hwx9_2 : ∀ i : grid9.Coords, EltTy.bits .f32 = 32 ∨ (Rect.block (s := S64x128) S64x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x10.size a ≤ S128x10.size a
  hwx9_4 : ∀ i : grid9.Coords, EltTy.bits .f32 = 32 ∨ (Rect.block (s := S128x10) S128x10.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x10.size a ≤ S1x10.size a
  hwx9_5 : ∀ i : grid9.Coords, EltTy.bits .f32 = 32 ∨ (Rect.block (s := S1x10) S1x10.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S64x10.size a ≤ S64x10.size a
  hwx9_6 : ∀ i : grid9.Coords, EltTy.bits .f32 = 32 ∨ (Rect.block (s := S64x10) S64x10.size (cc9_transform_6 i) (hinb9_6 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def gather_S100000_S50000x1_S50000_n_0_n_n_0_1_1 : GatherDims S100000 S50000x1 S50000 where
  offsetDims := []
  collapsedSliceDims := [0]
  operandBatchingDims := []
  startIndicesBatchingDims := []
  startIndexMap := [0]
  indexVectorDim := 1
  sliceSizes := ![1]
  wf := gather_S100000_S50000x1_S50000_n_0_n_n_0_1_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S4400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S4400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S4400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S4400x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S4400x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v63) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v65) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v66) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v73) S4400x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v27) S4400x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v74) S4400x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v77) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v80) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v81) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v98) S64x64.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v103) S64x1.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg6) S64x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v104) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg8) S128x10.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v105) S1x10.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v106) S64x10.size cc9_transform_6 reads9_6 true true 1 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S50000 : Shape := ⟨1, ![50000]⟩
abbrev S100000 : Shape := ⟨1, ![100000]⟩
abbrev S3x64x64 : Shape := ⟨3, ![3, 64, 64]⟩
abbrev S3x64 : Shape := ⟨2, ![3, 64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1x64x64 : Shape := ⟨3, ![1, 64, 64]⟩
abbrev S64x64 : Shape := ⟨2, ![64, 64]⟩
abbrev S1100000x64 : Shape := ⟨2, ![1100000, 64]⟩
abbrev S1x64 : Shape := ⟨2, ![1, 64]⟩
abbrev S64 : Shape := ⟨1, ![64]⟩
abbrev S50000x1 : Shape := ⟨2, ![50000, 1]⟩
abbrev S50000x64 : Shape := ⟨2, ![50000, 64]⟩
abbrev S64x1 : Shape := ⟨2, ![64, 1]⟩
abbrev S1x128 : Shape := ⟨2, ![1, 128]⟩
abbrev S64x10 : Shape := ⟨2, ![64, 10]⟩
abbrev S1x10 : Shape := ⟨2, ![1, 10]⟩

abbrev nBuf : Space → Nat
  | .hbm => 167
  | .vmem => 0
  | .smem => 0
  | _ => 0

abbrev hbmTy0_0 (i : Nat) : BufTy := match i % 128 with
  | 0 => ⟨S100000x64, .f32⟩
  | 1 => ⟨S2x1000000, .i32⟩
  | 2 => ⟨S50000, .i32⟩
  | 3 => ⟨S100000, .i32⟩
  | 4 => ⟨S3x64x64, .f32⟩
  | 5 => ⟨S3x64, .f32⟩
  | 6 => ⟨S64x128, .f32⟩
  | 7 => ⟨S128, .f32⟩
  | 8 => ⟨S128x10, .f32⟩
  | 9 => ⟨S10, .f32⟩
  | 10 => ⟨S100000, .i32⟩
  | 11 => ⟨S1x1000000, .i32⟩
  | 12 => ⟨S1000000, .i32⟩
  | 13 => ⟨S1100000, .i32⟩
  | 14 => ⟨S1x1000000, .i32⟩
  | 15 => ⟨S1000000, .i32⟩
  | 16 => ⟨S1100000, .i32⟩
  | 17 => ⟨S_, .f32⟩
  | 18 => ⟨S1100000, .f32⟩
  | 19 => ⟨S_, .f32⟩
  | 20 => ⟨S100000, .f32⟩
  | 21 => ⟨S1100000x1, .i32⟩
  | 22 => ⟨S100000, .f32⟩
  | 23 => ⟨S100000, .f32⟩
  | 24 => ⟨S_, .i32⟩
  | 25 => ⟨S1100000, .i32⟩
  | 26 => ⟨S1100000, .i1⟩
  | 27 => ⟨S_, .i32⟩
  | 28 => ⟨S1100000, .i32⟩
  | 29 => ⟨S1100000, .i32⟩
  | 30 => ⟨S1100000, .i32⟩
  | 31 => ⟨S1100000x1, .i32⟩
  | 32 => ⟨S1100000, .f32⟩
  | 33 => ⟨S_, .i32⟩
  | 34 => ⟨S1100000, .i32⟩
  | 35 => ⟨S1100000, .i1⟩
  | 36 => ⟨S_, .i32⟩
  | 37 => ⟨S1100000, .i32⟩
  | 38 => ⟨S1100000, .i32⟩
  | 39 => ⟨S1100000, .i32⟩
  | 40 => ⟨S1100000x1, .i32⟩
  | 41 => ⟨S1100000, .f32⟩
  | 42 => ⟨S1100000, .f32⟩
  | 43 => ⟨S1100000x1, .f32⟩
  | 44 => ⟨S1x64x64, .f32⟩
  | 45 => ⟨S64x64, .f32⟩
  | 46 => ⟨S100000x64, .f32⟩
  | 47 => ⟨S_, .i32⟩
  | 48 => ⟨S1100000, .i32⟩
  | 49 => ⟨S1100000, .i1⟩
  | 50 => ⟨S_, .i32⟩
  | 51 => ⟨S1100000, .i32⟩
  | 52 => ⟨S1100000, .i32⟩
  | 53 => ⟨S1100000, .i32⟩
  | 54 => ⟨S1100000x1, .i32⟩
  | 55 => ⟨S1100000x64, .f32⟩
  | 56 => ⟨S1100000x64, .f32⟩
  | 57 => ⟨S1100000x64, .f32⟩
  | 58 => ⟨S_, .f32⟩
  | 59 => ⟨S100000x64, .f32⟩
  | 60 => ⟨S1100000x1, .i32⟩
  | 61 => ⟨S100000x64, .f32⟩
  | 62 => ⟨S1x64, .f32⟩
  | 63 => ⟨S64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S1x64x64, .f32⟩
  | 71 => ⟨S64x64, .f32⟩
  | 72 => ⟨S100000x64, .f32⟩
  | 73 => ⟨S_, .i32⟩
  | 74 => ⟨S1100000, .i32⟩
  | 75 => ⟨S1100000, .i1⟩
  | 76 => ⟨S_, .i32⟩
  | 77 => ⟨S1100000, .i32⟩
  | 78 => ⟨S1100000, .i32⟩
  | 79 => ⟨S1100000, .i32⟩
  | 80 => ⟨S1100000x1, .i32⟩
  | 81 => ⟨S1100000x64, .f32⟩
  | 82 => ⟨S1100000x64, .f32⟩
  | 83 => ⟨S1100000x64, .f32⟩
  | 84 => ⟨S_, .f32⟩
  | 85 => ⟨S100000x64, .f32⟩
  | 86 => ⟨S1100000x1, .i32⟩
  | 87 => ⟨S100000x64, .f32⟩
  | 88 => ⟨S1x64, .f32⟩
  | 89 => ⟨S64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S1x64x64, .f32⟩
  | 97 => ⟨S64x64, .f32⟩
  | 98 => ⟨S100000x64, .f32⟩
  | 99 => ⟨S_, .i32⟩
  | 100 => ⟨S1100000, .i32⟩
  | 101 => ⟨S1100000, .i1⟩
  | 102 => ⟨S_, .i32⟩
  | 103 => ⟨S1100000, .i32⟩
  | 104 => ⟨S1100000, .i32⟩
  | 105 => ⟨S1100000, .i32⟩
  | 106 => ⟨S1100000x1, .i32⟩
  | 107 => ⟨S1100000x64, .f32⟩
  | 108 => ⟨S1100000x64, .f32⟩
  | 109 => ⟨S1100000x64, .f32⟩
  | 110 => ⟨S_, .f32⟩
  | 111 => ⟨S100000x64, .f32⟩
  | 112 => ⟨S1100000x1, .i32⟩
  | 113 => ⟨S100000x64, .f32⟩
  | 114 => ⟨S1x64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S_, .i32⟩
  | 123 => ⟨S50000, .i32⟩
  | 124 => ⟨S50000, .i1⟩
  | 125 => ⟨S_, .i32⟩
  | 126 => ⟨S50000, .i32⟩
  | 127 => ⟨S50000, .i32⟩
  | _ => ⟨S100000x64, .f32⟩

abbrev hbmTy0_1 (i : Nat) : BufTy := match i % 128 with
  | 0 => ⟨S50000, .i32⟩
  | 1 => ⟨S50000x1, .i32⟩
  | 2 => ⟨S50000x64, .f32⟩
  | 3 => ⟨S_, .i32⟩
  | 4 => ⟨S50000, .i32⟩
  | 5 => ⟨S50000, .i1⟩
  | 6 => ⟨S_, .i32⟩
  | 7 => ⟨S50000, .i32⟩
  | 8 => ⟨S50000, .i32⟩
  | 9 => ⟨S50000, .i32⟩
  | 10 => ⟨S50000x1, .i32⟩
  | 11 => ⟨S50000, .i32⟩
  | 12 => ⟨S_, .f32⟩
  | 13 => ⟨S64x64, .f32⟩
  | 14 => ⟨S50000x1, .i32⟩
  | 15 => ⟨S64x64, .f32⟩
  | 16 => ⟨S_, .f32⟩
  | 17 => ⟨S50000, .f32⟩
  | 18 => ⟨S_, .f32⟩
  | 19 => ⟨S64, .f32⟩
  | 20 => ⟨S50000x1, .i32⟩
  | 21 => ⟨S64, .f32⟩
  | 22 => ⟨S_, .f32⟩
  | 23 => ⟨S64, .f32⟩
  | 24 => ⟨S64, .f32⟩
  | 25 => ⟨S64x1, .f32⟩
  | 26 => ⟨S64x64, .f32⟩
  | 27 => ⟨S64x64, .f32⟩
  | 28 => ⟨S64x128, .f32⟩
  | 29 => ⟨S1x128, .f32⟩
  | 30 => ⟨S64x128, .f32⟩
  | 31 => ⟨S64x128, .f32⟩
  | 32 => ⟨S_, .f32⟩
  | 33 => ⟨S64x128, .f32⟩
  | 34 => ⟨S64x128, .f32⟩
  | 35 => ⟨S64x10, .f32⟩
  | 36 => ⟨S1x10, .f32⟩
  | 37 => ⟨S64x10, .f32⟩
  | 38 => ⟨S64x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_10 : Ref sig .tc := ⟨.hbm, 99, rfl⟩
abbrev main_v73 : Ref sig .tc := ⟨.hbm, 100, rfl⟩
abbrev main_v74 : Ref sig .tc := ⟨.hbm, 101, rfl⟩
abbrev main_c_11 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_12 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_call2_cst : Ref sig .tc := ⟨.hbm, 119, rfl⟩
abbrev main_call2_v0 : Ref sig .tc := ⟨.hbm, 120, rfl⟩
abbrev main_v90 : Ref sig .tc := ⟨.hbm, 121, rfl⟩
abbrev main_c_13 : Ref sig .tc := ⟨.hbm, 122, rfl⟩
abbrev main_v91 : Ref sig .tc := ⟨.hbm, 123, rfl⟩
abbrev main_v92 : Ref sig .tc := ⟨.hbm, 124, rfl⟩
abbrev main_c_14 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_15 : Ref sig .tc := ⟨.hbm, 131, rfl⟩
abbrev main_v98 : Ref sig .tc := ⟨.hbm, 132, rfl⟩
abbrev main_v99 : Ref sig .tc := ⟨.hbm, 133, rfl⟩
abbrev main_c_16 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_17 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_18 : Ref sig .tc := ⟨.hbm, 144, rfl⟩
abbrev main_v108 : Ref sig .tc := ⟨.hbm, 145, rfl⟩
abbrev main_cst_19 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_20 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_call3_cst : Ref sig .tc := ⟨.hbm, 160, rfl⟩
abbrev main_call3_v0 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  slices_S3x64x64_S1x64x64_0_0_0 : S3x64x64.Slices ![0, 0, 0] S1x64x64
  shapeCasts_S1x64x64_S64x64 : S1x64x64.ShapeCasts S64x64
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S50000 : S_.BroadcastsInDim S50000 (![] : Fin 0 → Fin S50000.rank)
  bcast_S50000_S50000x1_0 : S50000.BroadcastsInDim S50000x1 (![0] : Fin 1 → Fin S50000x1.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  gather_S100000x64_S50000x1_S50000x64_1_0_n_n_0_1_164_wf : GatherDims.WF S100000x64 S50000x1 S50000x64 [1] [0] [] [0] [] 1 ![1, 64]
  gather_S100000_S50000x1_S50000_n_0_n_n_0_1_1_wf : GatherDims.WF S100000 S50000x1 S50000 [] [0] [] [0] [] 1 ![1]
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x128_S64x128_1_0_0_1_n_n_wf : DotDims.WF S64x64 S64x128 S64x128 [1] [0] [0] [1] [] []
  dot_S64x128_S128x10_S64x10_1_0_0_1_n_n_wf : DotDims.WF S64x128 S128x10 S64x10 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def gather_S100000_S50000x1_S50000_n_0_n_n_0_1_1 : GatherDims S100000 S50000x1 S50000 where
  offsetDims := []
  collapsedSliceDims := [0]
  operandBatchingDims := []
  startIndicesBatchingDims := []
  startIndexMap := [0]
  indexVectorDim := 1
  sliceSizes := ![1]
  wf := gather_S100000_S50000x1_S50000_n_0_n_n_0_1_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.ResultRun.lean ====
/-
  The idealized kernel's run with its RESULT named. @main is ten TensorCore regions among stretches of host
  operations; the buffer contents at each boundary are the fold `W0 … W20` of the generated frame module (a host
  stretch rewrites the buffers its operations write, a region rewrites its output array with what its grid points
  flush). Every weakly fair execution terminates with every unscoped buffer at `W20`; here that is read at the
  result buffer as well as at the ten argument buffers.
-/
import proofs.«134593_j59777354826141_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W20` and the argument arrays as launched. -/
theorem run : θ_run defs (onTc (τ := τ) (main (F := F))) ⟨m, fun _ => 0, ρ⟩ (fun r => ∀ c : Dev nD,
      r.2.mem ((c.tc : Thread nD τ).loc main_v106) = W20 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v106 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c)⟩)

end Cert.KernelIdeal.ResultRun

end
-- ==== Proof.Carry.lean ====
/-
  Which buffers each stage of @main leaves alone. A host stretch rewrites exactly the result buffers of its own
  operations; a region rewrites its output array and leaves its input arrays (and every other buffer) as it found them.
  So a buffer written once, early — the edge sources and targets, the edge coefficients, the arguments — is read
  later, at any boundary, with the contents it had at the first one.
-/
import proofs.«134593_j59777354826141_2_alg».proof.Proof.Gen.KernelIdeal.Frame
import Idealize.ShloMosaic.PureOps.Ideal

set_option maxRecDepth 16384

noncomputable section

namespace Cert.KernelIdeal.Carry

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- Every reference written after the first host stretch: the later stretches' results and the regions' outputs. -/
abbrev later : List (Ref sig .tc) := [main_c_4, main_v31, main_v32, main_c_5, main_v33, main_v34, main_v35, main_v36, main_v37, main_cst_6, main_v39, main_v40, main_v41, main_v42, main_v43, main_v44, main_v46, main_v47, main_c_7, main_v49, main_v50, main_c_8, main_v51, main_v52, main_v53, main_v54, main_v55, main_cst_9, main_v57, main_v58, main_v59, main_v60, main_v61, main_v62, main_v64, main_v65, main_c_10, main_v67, main_v68, main_c_11, main_v69, main_v70, main_v71, main_v72, main_v73, main_cst_12, main_v75, main_v76, main_v77, main_v78, main_v79, main_v80, main_c_13, main_v82, main_v83, main_c_14, main_v84, main_v85, main_v86, main_v87, main_v88, main_c_15, main_v89, main_v90, main_c_16, main_v91, main_v92, main_v93, main_v94, main_v95, main_cst_17, main_v96, main_v97, main_v98, main_cst_18, main_v99, main_cst_19, main_v100, main_v101, main_v102, main_v103, main_v104, main_v105, main_v30, main_v38, main_v45, main_v48, main_v56, main_v63, main_v66, main_v74, main_v81, main_v106]

/-- The references the first host stretch writes. -/
abbrev early : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27, main_v28, main_v29]

theorem writes0 : (hostOps0 : List (HloOp τ sig (Elt Ideal))).Forall fun op => op.writes ⊆ (early.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The first stretch leaves every buffer it does not write at its launch contents. -/
theorem host0_keep (r : Ref sig .tc) (h : r ∉ early) : W1 m ρ c (Proc.devRef .tc r) = m ((c : Thread nD τ).loc r) :=
  StableHlo.after_of_writes_sub hostOps0 _ writes0 h

theorem writes1 : (hostOps1 : List (HloOp τ sig (Elt Ideal))).Forall fun op => op.writes ⊆ (later.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem host1_keep (r : Ref sig .tc) (h : r ∉ later) : W3 m ρ c (Proc.devRef .tc r) = W2 m ρ c (Proc.devRef .tc r) :=
  StableHlo.after_of_writes_sub hostOps1 _ writes1 h

theorem writes2 : (hostOps2 : List (HloOp τ sig (Elt Ideal))).Forall fun op => op.writes ⊆ (later.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem host2_keep (r : Ref sig .tc) (h : r ∉ later) : W5 m ρ c (Proc.devRef .tc r) = W4 m ρ c (Proc.devRef .tc r) :=
  StableHlo.after_of_writes_sub hostOps2 _ writes2 h

theorem writes3 : (hostOps3 : List (HloOp τ sig (Elt Ideal))).Forall fun op => op.writes ⊆ (later.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem host3_keep (r : Ref sig .tc) (h : r ∉ later) : W7 m ρ c (Proc.devRef .tc r) = W6 m ρ c (Proc.devRef .tc r) :=
  StableHlo.after_of_writes_sub hostOps3 _ writes3 h

theorem writes4 : (hostOps4 : List (HloOp τ sig (Elt Ideal))).Forall fun op => op.writes ⊆ (later.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem host4_keep (r : Ref sig .tc) (h : r ∉ later) : W9 m ρ c (Proc.devRef .tc r) = W8 m ρ c (Proc.devRef .tc r) :=
  StableHlo.after_of_writes_sub hostOps4 _ writes4 h

theorem writes5 : (hostOps5 : List (HloOp τ sig (Elt Ideal))).Forall fun op => op.writes ⊆ (later.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem host5_keep (r : Ref sig .tc) (h : r ∉ later) : W11 m ρ c (Proc.devRef .tc r) = W10 m ρ c (Proc.devRef .tc r) :=
  StableHlo.after_of_writes_sub hostOps5 _ writes5 h

theorem writes6 : (hostOps6 : List (HloOp τ sig (Elt Ideal))).Forall fun op => op.writes ⊆ (later.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem host6_keep (r : Ref sig .tc) (h : r ∉ later) : W13 m ρ c (Proc.devRef .tc r) = W12 m ρ c (Proc.devRef .tc r) :=
  StableHlo.after_of_writes_sub hostOps6 _ writes6 h

theorem writes7 : (hostOps7 : List (HloOp τ sig (Elt Ideal))).Forall fun op => op.writes ⊆ (later.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem host7_keep (r : Ref sig .tc) (h : r ∉ later) : W15 m ρ c (Proc.devRef .tc r) = W14 m ρ c (Proc.devRef .tc r) :=
  StableHlo.after_of_writes_sub hostOps7 _ writes7 h

theorem writes8 : (hostOps8 : List (HloOp τ sig (Elt Ideal))).Forall fun op => op.writes ⊆ (later.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem host8_keep (r : Ref sig .tc) (h : r ∉ later) : W17 m ρ c (Proc.devRef .tc r) = W16 m ρ c (Proc.devRef .tc r) :=
  StableHlo.after_of_writes_sub hostOps8 _ writes8 h

theorem writes9 : (hostOps9 : List (HloOp τ sig (Elt Ideal))).Forall fun op => op.writes ⊆ (later.map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem host9_keep (r : Ref sig .tc) (h : r ∉ later) : W19 m ρ c (Proc.devRef .tc r) = W18 m ρ c (Proc.devRef .tc r) :=
  StableHlo.after_of_writes_sub hostOps9 _ writes9 h

/-- Region 0 changes only its output array. -/
theorem reg0_keep (r : Ref sig .tc) (h : r ≠ main_v30) : W2 m ρ c (Proc.devRef .tc r) = W1 m ρ c (Proc.devRef .tc r) := by
  by_cases h0 : r = main_arg0
  · subst h0; exact (W2_arr m ρ c 0).trans (((dat0 (V1 m ρ) c).arrAt_in 0 rfl _).trans (A_eq0 (V1 m ρ) c 0))
  by_cases h1 : r = main_v29
  · subst h1; exact (W2_arr m ρ c 1).trans (((dat0 (V1 m ρ) c).arrAt_in 1 rfl _).trans (A_eq0 (V1 m ρ) c 1))
  refine W2_of_ne m ρ c r (fun w => ?_)
  match w with
  | ⟨0, _⟩ => exact fun e => h0 e.symm
  | ⟨1, _⟩ => exact fun e => h1 e.symm
  | ⟨2, _⟩ => exact fun e => h e.symm
  | ⟨n + 3, hw⟩ => exact absurd (show n + 3 < 3 from hw) (by omega)

/-- Region 1 changes only its output array. -/
theorem reg1_keep (r : Ref sig .tc) (h : r ≠ main_v38) : W4 m ρ c (Proc.devRef .tc r) = W3 m ρ c (Proc.devRef .tc r) := by
  by_cases h0 : r = main_v37
  · subst h0; exact (W4_arr m ρ c 0).trans (((dat1 (V3 m ρ) c).arrAt_in 0 rfl _).trans (A_eq1 (V3 m ρ) c 0))
  by_cases h1 : r = main_v27
  · subst h1; exact (W4_arr m ρ c 1).trans (((dat1 (V3 m ρ) c).arrAt_in 1 rfl _).trans (A_eq1 (V3 m ρ) c 1))
  refine W4_of_ne m ρ c r (fun w => ?_)
  match w with
  | ⟨0, _⟩ => exact fun e => h0 e.symm
  | ⟨1, _⟩ => exact fun e => h1 e.symm
  | ⟨2, _⟩ => exact fun e => h e.symm
  | ⟨n + 3, hw⟩ => exact absurd (show n + 3 < 3 from hw) (by omega)

/-- Region 2 changes only its output array. -/
theorem reg2_keep (r : Ref sig .tc) (h : r ≠ main_v45) : W6 m ρ c (Proc.devRef .tc r) = W5 m ρ c (Proc.devRef .tc r) := by
  by_cases h0 : r = main_v41
  · subst h0; exact (W6_arr m ρ c 0).trans (((dat2 (V5 m ρ) c).arrAt_in 0 rfl _).trans (A_eq2 (V5 m ρ) c 0))
  by_cases h1 : r = main_v44
  · subst h1; exact (W6_arr m ρ c 1).trans (((dat2 (V5 m ρ) c).arrAt_in 1 rfl _).trans (A_eq2 (V5 m ρ) c 1))
  refine W6_of_ne m ρ c r (fun w => ?_)
  match w with
  | ⟨0, _⟩ => exact fun e => h0 e.symm
  | ⟨1, _⟩ => exact fun e => h1 e.symm
  | ⟨2, _⟩ => exact fun e => h e.symm
  | ⟨n + 3, hw⟩ => exact absurd (show n + 3 < 3 from hw) (by omega)

/-- Region 3 changes only its output array. -/
theorem reg3_keep (r : Ref sig .tc) (h : r ≠ main_v48) : W8 m ρ c (Proc.devRef .tc r) = W7 m ρ c (Proc.devRef .tc r) := by
  by_cases h0 : r = main_v45
  · subst h0; exact (W8_arr m ρ c 0).trans (((dat3 (V7 m ρ) c).arrAt_in 0 rfl _).trans (A_eq3 (V7 m ρ) c 0))
  by_cases h1 : r = main_v47
  · subst h1; exact (W8_arr m ρ c 1).trans (((dat3 (V7 m ρ) c).arrAt_in 1 rfl _).trans (A_eq3 (V7 m ρ) c 1))
  refine W8_of_ne m ρ c r (fun w => ?_)
  match w with
  | ⟨0, _⟩ => exact fun e => h0 e.symm
  | ⟨1, _⟩ => exact fun e => h1 e.symm
  | ⟨2, _⟩ => exact fun e => h e.symm
  | ⟨n + 3, hw⟩ => exact absurd (show n + 3 < 3 from hw) (by omega)

/-- Region 4 changes only its output array. -/
theorem reg4_keep (r : Ref sig .tc) (h : r ≠ main_v56) : W10 m ρ c (Proc.devRef .tc r) = W9 m ρ c (Proc.devRef .tc r) := by
  by_cases h0 : r = main_v55
  · subst h0; exact (W10_arr m ρ c 0).trans (((dat4 (V9 m ρ) c).arrAt_in 0 rfl _).trans (A_eq4 (V9 m ρ) c 0))
  by_cases h1 : r = main_v27
  · subst h1; exact (W10_arr m ρ c 1).trans (((dat4 (V9 m ρ) c).arrAt_in 1 rfl _).trans (A_eq4 (V9 m ρ) c 1))
  refine W10_of_ne m ρ c r (fun w => ?_)
  match w with
  | ⟨0, _⟩ => exact fun e => h0 e.symm
  | ⟨1, _⟩ => exact fun e => h1 e.symm
  | ⟨2, _⟩ => exact fun e => h e.symm
  | ⟨n + 3, hw⟩ => exact absurd (show n + 3 < 3 from hw) (by omega)

/-- Region 5 changes only its output array. -/
theorem reg5_keep (r : Ref sig .tc) (h : r ≠ main_v63) : W12 m ρ c (Proc.devRef .tc r) = W11 m ρ c (Proc.devRef .tc r) := by
  by_cases h0 : r = main_v59
  · subst h0; exact (W12_arr m ρ c 0).trans (((dat5 (V11 m ρ) c).arrAt_in 0 rfl _).trans (A_eq5 (V11 m ρ) c 0))
  by_cases h1 : r = main_v62
  · subst h1; exact (W12_arr m ρ c 1).trans (((dat5 (V11 m ρ) c).arrAt_in 1 rfl _).trans (A_eq5 (V11 m ρ) c 1))
  refine W12_of_ne m ρ c r (fun w => ?_)
  match w with
  | ⟨0, _⟩ => exact fun e => h0 e.symm
  | ⟨1, _⟩ => exact fun e => h1 e.symm
  | ⟨2, _⟩ => exact fun e => h e.symm
  | ⟨n + 3, hw⟩ => exact absurd (show n + 3 < 3 from hw) (by omega)

/-- Region 6 changes only its output array. -/
theorem reg6_keep (r : Ref sig .tc) (h : r ≠ main_v66) : W14 m ρ c (Proc.devRef .tc r) = W13 m ρ c (Proc.devRef .tc r) := by
  by_cases h0 : r = main_v63
  · subst h0; exact (W14_arr m ρ c 0).trans (((dat6 (V13 m ρ) c).arrAt_in 0 rfl _).trans (A_eq6 (V13 m ρ) c 0))
  by_cases h1 : r = main_v65
  · subst h1; exact (W14_arr m ρ c 1).trans (((dat6 (V13 m ρ) c).arrAt_in 1 rfl _).trans (A_eq6 (V13 m ρ) c 1))
  refine W14_of_ne m ρ c r (fun w => ?_)
  match w with
  | ⟨0, _⟩ => exact fun e => h0 e.symm
  | ⟨1, _⟩ => exact fun e => h1 e.symm
  | ⟨2, _⟩ => exact fun e => h e.symm
  | ⟨n + 3, hw⟩ => exact absurd (show n + 3 < 3 from hw) (by omega)

/-- Region 7 changes only its output array. -/
theorem reg7_keep (r : Ref sig .tc) (h : r ≠ main_v74) : W16 m ρ c (Proc.devRef .tc r) = W15 m ρ c (Proc.devRef .tc r) := by
  by_cases h0 : r = main_v73
  · subst h0; exact (W16_arr m ρ c 0).trans (((dat7 (V15 m ρ) c).arrAt_in 0 rfl _).trans (A_eq7 (V15 m ρ) c 0))
  by_cases h1 : r = main_v27
  · subst h1; exact (W16_arr m ρ c 1).trans (((dat7 (V15 m ρ) c).arrAt_in 1 rfl _).trans (A_eq7 (V15 m ρ) c 1))
  refine W16_of_ne m ρ c r (fun w => ?_)
  match w with
  | ⟨0, _⟩ => exact fun e => h0 e.symm
  | ⟨1, _⟩ => exact fun e => h1 e.symm
  | ⟨2, _⟩ => exact fun e => h e.symm
  | ⟨n + 3, hw⟩ => exact absurd (show n + 3 < 3 from hw) (by omega)

/-- Region 8 changes only its output array. -/
theorem reg8_keep (r : Ref sig .tc) (h : r ≠ main_v81) : W18 m ρ c (Proc.devRef .tc r) = W17 m ρ c (Proc.devRef .tc r) := by
  by_cases h0 : r = main_v77
  · subst h0; exact (W18_arr m ρ c 0).trans (((dat8 (V17 m ρ) c).arrAt_in 0 rfl _).trans (A_eq8 (V17 m ρ) c 0))
  by_cases h1 : r = main_v80
  · subst h1; exact (W18_arr m ρ c 1).trans (((dat8 (V17 m ρ) c).arrAt_in 1 rfl _).trans (A_eq8 (V17 m ρ) c 1))
  refine W18_of_ne m ρ c r (fun w => ?_)
  match w with
  | ⟨0, _⟩ => exact fun e => h0 e.symm
  | ⟨1, _⟩ => exact fun e => h1 e.symm
  | ⟨2, _⟩ => exact fun e => h e.symm
  | ⟨n + 3, hw⟩ => exact absurd (show n + 3 < 3 from hw) (by omega)

/-- Region 9 changes only its output array. -/
theorem reg9_keep (r : Ref sig .tc) (h : r ≠ main_v106) : W20 m ρ c (Proc.devRef .tc r) = W19 m ρ c (Proc.devRef .tc r) := by
  by_cases h0 : r = main_v98
  · subst h0; exact (W20_arr m ρ c 0).trans (((dat9 (V19 m ρ) c).arrAt_in 0 rfl _).trans (A_eq9 (V19 m ρ) c 0))
  by_cases h1 : r = main_v103
  · subst h1; exact (W20_arr m ρ c 1).trans (((dat9 (V19 m ρ) c).arrAt_in 1 rfl _).trans (A_eq9 (V19 m ρ) c 1))
  by_cases h2 : r = main_arg6
  · subst h2; exact (W20_arr m ρ c 2).trans (((dat9 (V19 m ρ) c).arrAt_in 2 rfl _).trans (A_eq9 (V19 m ρ) c 2))
  by_cases h3 : r = main_v104
  · subst h3; exact (W20_arr m ρ c 3).trans (((dat9 (V19 m ρ) c).arrAt_in 3 rfl _).trans (A_eq9 (V19 m ρ) c 3))
  by_cases h4 : r = main_arg8
  · subst h4; exact (W20_arr m ρ c 4).trans (((dat9 (V19 m ρ) c).arrAt_in 4 rfl _).trans (A_eq9 (V19 m ρ) c 4))
  by_cases h5 : r = main_v105
  · subst h5; exact (W20_arr m ρ c 5).trans (((dat9 (V19 m ρ) c).arrAt_in 5 rfl _).trans (A_eq9 (V19 m ρ) c 5))
  refine W20_of_ne m ρ c r (fun w => ?_)
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => h5 e.symm
  | ⟨6, _⟩ => exact fun e => h e.symm
  | ⟨n + 7, hw⟩ => exact absurd (show n + 7 < 7 from hw) (by omega)

/-! ## A buffer no later stage writes, read at a later boundary, is what it was at the first boundary -/
theorem keep2 (r : Ref sig .tc) (h : r ∉ later) : W2 m ρ c (Proc.devRef .tc r) = W1 m ρ c (Proc.devRef .tc r) :=
  (reg0_keep m ρ c r (fun e => h (e ▸ (by decide : main_v30 ∈ later)))).trans rfl
theorem keep3 (r : Ref sig .tc) (h : r ∉ later) : W3 m ρ c (Proc.devRef .tc r) = W1 m ρ c (Proc.devRef .tc r) :=
  (host1_keep m ρ c r h).trans (keep2 m ρ c r h)
theorem keep4 (r : Ref sig .tc) (h : r ∉ later) : W4 m ρ c (Proc.devRef .tc r) = W1 m ρ c (Proc.devRef .tc r) :=
  (reg1_keep m ρ c r (fun e => h (e ▸ (by decide : main_v38 ∈ later)))).trans (keep3 m ρ c r h)
theorem keep5 (r : Ref sig .tc) (h : r ∉ later) : W5 m ρ c (Proc.devRef .tc r) = W1 m ρ c (Proc.devRef .tc r) :=
  (host2_keep m ρ c r h).trans (keep4 m ρ c r h)
theorem keep6 (r : Ref sig .tc) (h : r ∉ later) : W6 m ρ c (Proc.devRef .tc r) = W1 m ρ c (Proc.devRef .tc r) :=
  (reg2_keep m ρ c r (fun e => h (e ▸ (by decide : main_v45 ∈ later)))).trans (keep5 m ρ c r h)
theorem keep7 (r : Ref sig .tc) (h : r ∉ later) : W7 m ρ c (Proc.devRef .tc r) = W1 m ρ c (Proc.devRef .tc r) :=
  (host3_keep m ρ c r h).trans (keep6 m ρ c r h)
theorem keep8 (r : Ref sig .tc) (h : r ∉ later) : W8 m ρ c (Proc.devRef .tc r) = W1 m ρ c (Proc.devRef .tc r) :=
  (reg3_keep m ρ c r (fun e => h (e ▸ (by decide : main_v48 ∈ later)))).trans (keep7 m ρ c r h)
theorem keep9 (r : Ref sig .tc) (h : r ∉ later) : W9 m ρ c (Proc.devRef .tc r) = W1 m ρ c (Proc.devRef .tc r) :=
  (host4_keep m ρ c r h).trans (keep8 m ρ c r h)
theorem keep10 (r : Ref sig .tc) (h : r ∉ later) : W10 m ρ c (Proc.devRef .tc r) = W1 m ρ c (Proc.devRef .tc r) :=
  (reg4_keep m ρ c r (fun e => h (e ▸ (by decide : main_v56 ∈ later)))).trans (keep9 m ρ c r h)
theorem keep11 (r : Ref sig .tc) (h : r ∉ later) : W11 m ρ c (Proc.devRef .tc r) = W1 m ρ c (Proc.devRef .tc r) :=
  (host5_keep m ρ c r h).trans (keep10 m ρ c r h)
theorem keep12 (r : Ref sig .tc) (h : r ∉ later) : W12 m ρ c (Proc.devRef .tc r) = W1 m ρ c (Proc.devRef .tc r) :=
  (reg5_keep m ρ c r (fun e => h (e ▸ (by decide : main_v63 ∈ later)))).trans (keep11 m ρ c r h)
theorem keep13 (r : Ref sig .tc) (h : r ∉ later) : W13 m ρ c (Proc.devRef .tc r) = W1 m ρ c (Proc.devRef .tc r) :=
  (host6_keep m ρ c r h).trans (keep12 m ρ c r h)
theorem keep14 (r : Ref sig .tc) (h : r ∉ later) : W14 m ρ c (Proc.devRef .tc r) = W1 m ρ c (Proc.devRef .tc r) :=
  (reg6_keep m ρ c r (fun e => h (e ▸ (by decide : main_v66 ∈ later)))).trans (keep13 m ρ c r h)
theorem keep15 (r : Ref sig .tc) (h : r ∉ later) : W15 m ρ c (Proc.devRef .tc r) = W1 m ρ c (Proc.devRef .tc r) :=
  (host7_keep m ρ c r h).trans (keep14 m ρ c r h)
theorem keep16 (r : Ref sig .tc) (h : r ∉ later) : W16 m ρ c (Proc.devRef .tc r) = W1 m ρ c (Proc.devRef .tc r) :=
  (reg7_keep m ρ c r (fun e => h (e ▸ (by decide : main_v74 ∈ later)))).trans (keep15 m ρ c r h)
theorem keep17 (r : Ref sig .tc) (h : r ∉ later) : W17 m ρ c (Proc.devRef .tc r) = W1 m ρ c (Proc.devRef .tc r) :=
  (host8_keep m ρ c r h).trans (keep16 m ρ c r h)
theorem keep18 (r : Ref sig .tc) (h : r ∉ later) : W18 m ρ c (Proc.devRef .tc r) = W1 m ρ c (Proc.devRef .tc r) :=
  (reg8_keep m ρ c r (fun e => h (e ▸ (by decide : main_v81 ∈ later)))).trans (keep17 m ρ c r h)
theorem keep19 (r : Ref sig .tc) (h : r ∉ later) : W19 m ρ c (Proc.devRef .tc r) = W1 m ρ c (Proc.devRef .tc r) :=
  (host9_keep m ρ c r h).trans (keep18 m ρ c r h)

/-- An argument, read at any boundary, is as launched. -/
theorem arg_at1 (r : Ref sig .tc) (h : r ∉ early) : W1 m ρ c (Proc.devRef .tc r) = m ((c : Thread nD τ).loc r) := host0_keep m ρ c r h

end Cert.KernelIdeal.Carry

end
-- ==== Proof.Payloads.lean ====
/-
  What each kernel body stores, read at an index, at the ideal instance (floats are extended reals, every format
  change is the identity). Three body shapes occur: a block of rows times a 64×64 weight matrix into a zero accumulator
  (the sum over the contracted axis), a block of rows scaled by a per-row coefficient, and a block plus a bias row
  clamped below at zero.
-/
import proofs.«134593_j59777354826141_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Pay

open Cert.KernelIdeal Cert.KernelIdeal.Gen Idealize.ShloMosaic Idealize.ShloMosaic.ValueIdx
open scoped BigOperators

/-! ## The row-block product's operand indices -/

theorem lhs0 (j : S10000x64.Idx) (q : dot_S10000x64_S64x64_S10000x64_1_0_0_1_n_n.contr.Idx) : (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs1 (j : S10000x64.Idx) (q : dot_S10000x64_S64x64_S10000x64_1_0_0_1_n_n.contr.Idx) : (dot_S10000x64_S64x64_S10000x64_1_0_0_1_n_n.lhsIdx j q 1).val = (q ⟨0, by decide⟩).val :=
  dot_S10000x64_S64x64_S10000x64_1_0_0_1_n_n.lhsIdx_val_of_single rfl j q
theorem rhs0 (j : S10000x64.Idx) (q : dot_S10000x64_S64x64_S10000x64_1_0_0_1_n_n.contr.Idx) : (dot_S10000x64_S64x64_S10000x64_1_0_0_1_n_n.rhsIdx j q 0).val = (q ⟨0, by decide⟩).val :=
  dot_S10000x64_S64x64_S10000x64_1_0_0_1_n_n.rhsIdx_val_of_single rfl j q
theorem rhs1 (j : S10000x64.Idx) (q : dot_S10000x64_S64x64_S10000x64_1_0_0_1_n_n.contr.Idx) : (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of rows times a matrix into the zero accumulator: entry (p, q) is ∑ₖ a(p, k) · b(k, q). -/
theorem matmul_rows_apply (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q) = ∑ k : Fin 64, a (ix2 p k) * b (ix2 k q) := by
  refine (Ideal.matmul_constant_zero_apply dot_S10000x64_S64x64_S10000x64_1_0_0_1_n_n none a b (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs0 _ _
    | ⟨1, _⟩ => exact (lhs1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs0 _ _).trans hk
    | ⟨1, _⟩ => exact rhs1 _ _)
  rw [el, er]

/-- A column [4400, 1] broadcast along the rows of [4400, 64]: entry (p, q) is the column's (p, 0). -/
theorem col_bcast (x : Vec Ideal S4400x1 .f32) (p : Fin 4400) (q : Fin 64) :
    broadcastTo S4400x64 x broadcasts_S4400x1_S4400x64 (ix2 p q) = x (ix2 p (0 : Fin 1)) :=
  broadcastTo_apply x broadcasts_S4400x1_S4400x64 (ix2 p q) (ix2 p (0 : Fin 1)) (fun a => match a with
    | ⟨0, _⟩ => by show p.val = if (4400 : Nat) = 1 then 0 else p.val; rw [if_neg (by decide)]
    | ⟨1, _⟩ => by show 0 = if (1 : Nat) = 1 then 0 else q.val; rw [if_pos rfl])

/-- A row [1, 64] broadcast down the rows of [10000, 64]: entry (p, q) is the row's (0, q). -/
theorem row_bcast (x : Vec Ideal S1x64 .f32) (p : Fin 10000) (q : Fin 64) :
    broadcastTo S10000x64 x broadcasts_S1x64_S10000x64 (ix2 p q) = x (ix2 (0 : Fin 1) q) :=
  broadcastTo_apply x broadcasts_S1x64_S10000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-! ## The nine tiled bodies -/

/-- Region 0's body stores the row block times the weight matrix: entry (p, q) is the sum over k of the block's
    (p, k) times the weights' (k, q) (the bf16 format changes are the identity on extended reals, the accumulator is zero). -/
theorem k0_apply (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 k q) := by
  unfold k0_pay1
  rw [shapeCast_self]
  exact matmul_rows_apply _ _ p q

/-- Region 1's body stores each row of the block scaled by that row's coefficient. -/
theorem k1_apply (x0 : Vec Ideal S4400x64 .f32) (x1 : Vec Ideal S4400x1 .f32) (p : Fin 4400) (q : Fin 64) :
    k1_pay1 (F := Ideal) x0 x1 (ix2 p q) = x0 (ix2 p q) * x1 (ix2 p (0 : Fin 1)) := by
  unfold k1_pay1
  rw [shapeCast_self, shapeCast_self]
  exact congrArg (x0 (ix2 p q) * ·) (col_bcast x1 p q)

/-- Region 2's body stores the block plus the bias row, clamped below at zero. -/
theorem k2_apply (x0 : Vec Ideal S10000x64 .f32) (x1 : Vec Ideal S1x64 .f32) (p : Fin 10000) (q : Fin 64) :
    k2_pay1 (F := Ideal) x0 x1 (ix2 p q) = max (x0 (ix2 p q) + x1 (ix2 (0 : Fin 1) q)) (Ideal.ofBits .f32 0x00000000#32) := by
  unfold k2_pay1
  rw [shapeCast_self, shapeCast_self]
  exact congrArg (fun z => max (x0 (ix2 p q) + z) (Ideal.ofBits .f32 0x00000000#32)) (row_bcast x1 p q)

/-- Region 3's body stores the row block times the weight matrix: entry (p, q) is the sum over k of the block's
    (p, k) times the weights' (k, q) (the bf16 format changes are the identity on extended reals, the accumulator is zero). -/
theorem k3_apply (x0 : Vec Ideal S10000x64 .f32) (x1 : Vec Ideal S64x64 .f32) (p : Fin 10000) (q : Fin 64) :
    k3_pay1 (F := Ideal) x0 x1 (ix2 p q) = ∑ k : Fin 64, x0 (ix2 p k) * x1 (ix2 k q) := by
  unfold k3_pay1
  rw [shapeCast_self, shapeCast_self]
  exact matmul_rows_apply _ _ p q

/-- Region 4's body stores each row of the block scaled by that row's coefficient. -/
theorem k4_apply (x0 : Vec Ideal S4400x64 .f32) (x1 : Vec Ideal S4400x1 .f32) (p : Fin 4400) (q : Fin 64) :
    k4_pay1 (F := Ideal) x0 x1 (ix2 p q) = x0 (ix2 p q) * x1 (ix2 p (0 : Fin 1)) := by
  unfold k4_pay1
  rw [shapeCast_self, shapeCast_self]
  exact congrArg (x0 (ix2 p q) * ·) (col_bcast x1 p q)

/-- Region 5's body stores the block plus the bias row, clamped below at zero. -/
theorem k5_apply (x0 : Vec Ideal S10000x64 .f32) (x1 : Vec Ideal S1x64 .f32) (p : Fin 10000) (q : Fin 64) :
    k5_pay1 (F := Ideal) x0 x1 (ix2 p q) = max (x0 (ix2 p q) + x1 (ix2 (0 : Fin 1) q)) (Ideal.ofBits .f32 0x00000000#32) := by
  unfold k5_pay1
  rw [shapeCast_self, shapeCast_self]
  exact congrArg (fun z => max (x0 (ix2 p q) + z) (Ideal.ofBits .f32 0x00000000#32)) (row_bcast x1 p q)

/-- Region 6's body stores the row block times the weight matrix: entry (p, q) is the sum over k of the block's
    (p, k) times the weights' (k, q) (the bf16 format changes are the identity on extended reals, the accumulator is zero). -/
theorem k6_apply (x0 : Vec Ideal S10000x64 .f32) (x1 : Vec Ideal S64x64 .f32) (p : Fin 10000) (q : Fin 64) :
    k6_pay1 (F := Ideal) x0 x1 (ix2 p q) = ∑ k : Fin 64, x0 (ix2 p k) * x1 (ix2 k q) := by
  unfold k6_pay1
  rw [shapeCast_self, shapeCast_self]
  exact matmul_rows_apply _ _ p q

/-- Region 7's body stores each row of the block scaled by that row's coefficient. -/
theorem k7_apply (x0 : Vec Ideal S4400x64 .f32) (x1 : Vec Ideal S4400x1 .f32) (p : Fin 4400) (q : Fin 64) :
    k7_pay1 (F := Ideal) x0 x1 (ix2 p q) = x0 (ix2 p q) * x1 (ix2 p (0 : Fin 1)) := by
  unfold k7_pay1
  rw [shapeCast_self, shapeCast_self]
  exact congrArg (x0 (ix2 p q) * ·) (col_bcast x1 p q)

/-- Region 8's body stores the block plus the bias row, clamped below at zero. -/
theorem k8_apply (x0 : Vec Ideal S10000x64 .f32) (x1 : Vec Ideal S1x64 .f32) (p : Fin 10000) (q : Fin 64) :
    k8_pay1 (F := Ideal) x0 x1 (ix2 p q) = max (x0 (ix2 p q) + x1 (ix2 (0 : Fin 1) q)) (Ideal.ofBits .f32 0x00000000#32) := by
  unfold k8_pay1
  rw [shapeCast_self, shapeCast_self]
  exact congrArg (fun z => max (x0 (ix2 p q) + z) (Ideal.ofBits .f32 0x00000000#32)) (row_bcast x1 p q)

end Cert.KernelIdeal.Pay

end
-- ==== Proof.RefOps.lean ====
/-
  The three whole-array operations that the tiled regions of the kernel compute block by block, written with the
  reference's own host operations, and each read at an index at the ideal instance: the rows of a [100000, 64] array
  times a 64×64 matrix (entry (r, q) is ∑ₖ X(r, k) · W(k, q)); the rows of a [1100000, 64] array each scaled by that row's
  coefficient; a [100000, 64] array plus a bias row, clamped below at zero.
-/
import proofs.«134593_j59777354826141_2_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.ReferenceIdeal.Whole

open Cert.ReferenceIdeal Cert.ReferenceIdeal.Gen Idealize.ShloMosaic Idealize.ShloMosaic.ValueIdx
open scoped BigOperators

variable {F : FTy → Type} [FloatOps F]

/-- The rows of `X` times the matrix `W`, as the host's contraction of axis 1 with axis 0. -/
def matRows (X : FVec F S100000x64 .f32) (W : FVec F S64x64 .f32) : FVec F S100000x64 .f32 :=
  Host.dotGeneral dot_S100000x64_S64x64_S100000x64_1_0_0_1_n_n none X W

/-- Each row of `g` times that row's coefficient (the coefficient column spread along the row). -/
def scaleRows (g : FVec F S1100000x64 .f32) (cf : FVec F S1100000x1 .f32) : FVec F S1100000x64 .f32 :=
  mulf g (broadcastInDim S1100000x64 ![0, 1] bcast_S1100000x1_S1100000x64_0_1 cf)

/-- `s` plus the bias row (spread down the rows), clamped below at zero. -/
def biasRelu (s : FVec F S100000x64 .f32) (b2 : FVec F S1x64 .f32) : FVec F S100000x64 .f32 :=
  maximumf (addf s (broadcastInDim S100000x64 ![0, 1] bcast_S1x64_S100000x64_0_1 b2))
    (broadcastInDim S100000x64 ![] bcast_S_S100000x64 (constant S_ .f32 0x00000000#32))

/-! ## The contraction's operand indices -/

theorem lhs0 (j : S100000x64.Idx) (q : dot_S100000x64_S64x64_S100000x64_1_0_0_1_n_n.contr.Idx) : (dot_S100000x64_S64x64_S100000x64_1_0_0_1_n_n.lhsIdx j q 0).val = (j 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs1 (j : S100000x64.Idx) (q : dot_S100000x64_S64x64_S100000x64_1_0_0_1_n_n.contr.Idx) : (dot_S100000x64_S64x64_S100000x64_1_0_0_1_n_n.lhsIdx j q 1).val = (q ⟨0, by decide⟩).val :=
  dot_S100000x64_S64x64_S100000x64_1_0_0_1_n_n.lhsIdx_val_of_single rfl j q
theorem rhs0 (j : S100000x64.Idx) (q : dot_S100000x64_S64x64_S100000x64_1_0_0_1_n_n.contr.Idx) : (dot_S100000x64_S64x64_S100000x64_1_0_0_1_n_n.rhsIdx j q 0).val = (q ⟨0, by decide⟩).val :=
  dot_S100000x64_S64x64_S100000x64_1_0_0_1_n_n.rhsIdx_val_of_single rfl j q
theorem rhs1 (j : S100000x64.Idx) (q : dot_S100000x64_S64x64_S100000x64_1_0_0_1_n_n.contr.Idx) : (dot_S100000x64_S64x64_S100000x64_1_0_0_1_n_n.rhsIdx j q 1).val = (j 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- Entry (r, q) of the product is ∑ₖ X(r, k) · W(k, q). -/
theorem matRows_apply (X : FVec Ideal S100000x64 .f32) (W : FVec Ideal S64x64 .f32) (r : Fin 100000) (q : Fin 64) :
    matRows X W (ix2 r q) = ∑ k : Fin 64, X (ix2 r k) * W (ix2 k q) := by
  unfold matRows
  simp only [Host.dotGeneral]
  refine (Ideal.dotGeneral_apply dot_S100000x64_S64x64_S100000x64_1_0_0_1_n_n none _ X W (ix2 r q)).trans ?_
  rw [← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r q) ((contrEquiv1 dot_S100000x64_S64x64_S100000x64_1_0_0_1_n_n 64 rfl rfl).symm k) = ix2 r k := funext fun a => Fin.ext (by
    match a with
    | ⟨0, _⟩ => exact lhs0 _ _
    | ⟨1, _⟩ => exact (lhs1 _ _).trans hk)
  have er : dot_S100000x64_S64x64_S100000x64_1_0_0_1_n_n.rhsIdx (ix2 r q) ((contrEquiv1 dot_S100000x64_S64x64_S100000x64_1_0_0_1_n_n 64 rfl rfl).symm k) = ix2 k q := funext fun a => Fin.ext (by
    match a with
    | ⟨0, _⟩ => exact (rhs0 _ _).trans hk
    | ⟨1, _⟩ => exact rhs1 _ _)
  rw [el, er]

/-- Entry (r, q) of the scaled rows is g(r, q) · cf(r, 0). -/
theorem scaleRows_apply (g : FVec Ideal S1100000x64 .f32) (cf : FVec Ideal S1100000x1 .f32) (r : Fin 1100000) (q : Fin 64) :
    scaleRows g cf (ix2 r q) = g (ix2 r q) * cf (ix2 r (0 : Fin 1)) := by
  unfold scaleRows
  show g (ix2 r q) * broadcastInDim S1100000x64 ![0, 1] bcast_S1100000x1_S1100000x64_0_1 cf (ix2 r q) = _
  refine congrArg (g (ix2 r q) * ·) ?_
  exact broadcastInDim_apply _ bcast_S1100000x1_S1100000x64_0_1 cf (ix2 r q) (ix2 r (0 : Fin 1)) (fun a => match a with
    | ⟨0, _⟩ => by show r.val = if (1100000 : Nat) = 1 then 0 else r.val; rw [if_neg (by decide)]
    | ⟨1, _⟩ => by show 0 = if (1 : Nat) = 1 then 0 else q.val; rw [if_pos rfl])

/-- Entry (r, q) of the biased, clamped array is max (s(r, q) + b(0, q)) 0. -/
theorem biasRelu_apply (s : FVec Ideal S100000x64 .f32) (b2 : FVec Ideal S1x64 .f32) (r : Fin 100000) (q : Fin 64) :
    biasRelu s b2 (ix2 r q) = max (s (ix2 r q) + b2 (ix2 (0 : Fin 1) q)) (Ideal.ofBits .f32 0x00000000#32) := by
  unfold biasRelu
  show max (s (ix2 r q) + broadcastInDim S100000x64 ![0, 1] bcast_S1x64_S100000x64_0_1 b2 (ix2 r q))
    (broadcastInDim S100000x64 ![] bcast_S_S100000x64 (constant (F := Ideal) S_ .f32 0x00000000#32) (ix2 r q)) = _
  have e1 : broadcastInDim S100000x64 ![0, 1] bcast_S1x64_S100000x64_0_1 b2 (ix2 r q) = b2 (ix2 (0 : Fin 1) q) :=
    broadcastInDim_apply _ bcast_S1x64_S100000x64_0_1 b2 (ix2 r q) (ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)])
  have e2 : broadcastInDim S100000x64 ![] bcast_S_S100000x64 (constant (F := Ideal) S_ .f32 0x00000000#32) (ix2 r q) = Ideal.ofBits .f32 0x00000000#32 :=
    broadcastInDim_apply _ bcast_S_S100000x64 (constant (F := Ideal) S_ .f32 0x00000000#32) (ix2 r q) ix0 (fun a => a.elim0)
  rw [e1, e2]

end Cert.ReferenceIdeal.Whole

end
-- ==== Proof.WholeOps.lean ====
/-
  The three whole-array operations of the tiled regions, typed over the kernel program's own shapes: the rows of an array
  times a 64×64 matrix, rows scaled by per-row coefficients, and an array plus a bias row clamped below at zero. Each is
  the reference's host operation of the same name (same extents, so the same index types).
-/
import proofs.«134593_j59777354826141_2_alg».proof.Proof.Gen.KernelIdeal
import proofs.«134593_j59777354826141_2_alg».proof.Proof.RefOps

set_option maxRecDepth 16384

noncomputable section

namespace Cert.KernelIdeal.Reg

open Cert.KernelIdeal Idealize.ShloMosaic

abbrev matW (X : S100000x64.Idx → Elt Ideal .f32) (W : S64x64.Idx → Elt Ideal .f32) : S100000x64.Idx → Elt Ideal .f32 :=
  Cert.ReferenceIdeal.Whole.matRows (F := Ideal) X W

abbrev scaleW (g : S1100000x64.Idx → Elt Ideal .f32) (cf : S1100000x1.Idx → Elt Ideal .f32) : S1100000x64.Idx → Elt Ideal .f32 :=
  Cert.ReferenceIdeal.Whole.scaleRows (F := Ideal) g cf

abbrev biasW (s : S100000x64.Idx → Elt Ideal .f32) (b2 : S1x64.Idx → Elt Ideal .f32) : S100000x64.Idx → Elt Ideal .f32 :=
  Cert.ReferenceIdeal.Whole.biasRelu (F := Ideal) s b2

theorem hz2 : (![0, 0] : Fin 2 → Nat) = fun _ => 0 := funext fun a => by fin_cases a <;> rfl

end Cert.KernelIdeal.Reg

end
-- ==== Proof.RegMat.lean ====
/-
  The three row-tiled products of the kernel (one per layer), each read as ONE whole-array product: the grid's ten
  points each take a block of 10000 rows of the left operand and the whole 64×64 weight matrix, and a row of a product
  depends only on the same row of the left operand, so the blocks the points write back are the blocks of the whole
  product, and they tile the output.
-/
import proofs.«134593_j59777354826141_2_alg».proof.Proof.Gen.KernelIdeal.Frame
import proofs.«134593_j59777354826141_2_alg».proof.Proof.Payloads
import proofs.«134593_j59777354826141_2_alg».proof.Proof.WholeOps

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## Region 0: ten blocks of 10000 rows, each times the weight matrix -/

/-- The index maps over the grid: which block of each operand a point takes. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole-array operation: row `10000·t + p` of the result reads only
    row `10000·t + p` of the tiled operand, which is row `p` of the point's block. -/
theorem flushed0 (c : Dev nD) (t : Fin cfg0.N) :
    (dat0 V c).flushed 2 t = ((cfg0.win 2).blk t).view.read (Elt Ideal) (matW (V c main_arg0) (V c main_v29)) := by
  show (cfg0.win 2).cut (grid0.coords t) ((dat0 V c).after 2 t) = _
  rw [after0_2]
  unfold out0_2
  rw [View.canon_unit_zero hz2]
  simp only [View.ld_unit_zero (S := S10000x64) hz2, View.ld_unit_zero (S := S64x64) hz2]
  obtain ⟨e0, e1, e2, e3, e4, e5⟩ := idx0 t
  have ht : t.val < 10 := Nat.lt_of_lt_of_eq t.isLt (show cfg0.N = 10 from N_0)
  funext j
  obtain ⟨p, q, rfl⟩ : ∃ (p : Fin 10000) (q : Fin 64), j = ix2 p q := ⟨j 0, j 1, eq_ix2 j⟩
  refine (Pay.k0_apply _ _ p q).trans ?_
  have hp : t.val * 10000 + p.val < 100000 := by have := p.isLt; omega
  show _ = matW (V c main_arg0) (V c main_v29) (((cfg0.win 2).blk t).view.emb (ix2 p q))
  have hemb : ((cfg0.win 2).blk t).view.emb (ix2 p q) = ix2 (⟨t.val * 10000 + p.val, hp⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  rw [hemb]
  refine Eq.trans ?_ (Cert.ReferenceIdeal.Whole.matRows_apply _ _ _ q).symm
  refine Finset.sum_congr rfl fun k _ => ?_
  have h0 : iblk0 V c 0 t (ix2 p k) = V c main_arg0 (ix2 (⟨t.val * 10000 + p.val, hp⟩ : Fin 100000) k) := by
    show V c main_arg0 (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  have h1 : iblk0 V c 1 t (ix2 k q) = V c main_v29 (ix2 k q) := by
    show V c main_v29 (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega
  rw [h0, h1]

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every row lies in the block of the point `row / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨e0, e1, e2, e3, e4, e5⟩ := idx0 t
  have e4' : win0_2.index t (0 : Fin 2) = (i 0).val / 10000 := e4
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After region 0 its output array is the whole-array operation of the two arrays it entered with. -/
theorem final0 (c : Dev nD) :
    (dat0 V c).arrAt 2 cfg0.N = matW (V c main_arg0) (V c main_v29) :=
  (dat0 V c).arrAt_eq_of_cover 2 (matW (V c main_arg0) (V c main_v29)) (fun t _ => flushed0 V c t) (cover0)

/-! ## Region 3: ten blocks of 10000 rows, each times the weight matrix -/

/-- The index maps over the grid: which block of each operand a point takes. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array operation: row `10000·t + p` of the result reads only
    row `10000·t + p` of the tiled operand, which is row `p` of the point's block. -/
theorem flushed3 (c : Dev nD) (t : Fin cfg3.N) :
    (dat3 V c).flushed 2 t = ((cfg3.win 2).blk t).view.read (Elt Ideal) (matW (V c main_v45) (V c main_v47)) := by
  show (cfg3.win 2).cut (grid3.coords t) ((dat3 V c).after 2 t) = _
  rw [after3_2]
  unfold out3_2
  rw [View.canon_unit_zero hz2]
  simp only [View.ld_unit_zero (S := S10000x64) hz2, View.ld_unit_zero (S := S64x64) hz2]
  obtain ⟨e0, e1, e2, e3, e4, e5⟩ := idx3 t
  have ht : t.val < 10 := Nat.lt_of_lt_of_eq t.isLt (show cfg3.N = 10 from N_3)
  funext j
  obtain ⟨p, q, rfl⟩ : ∃ (p : Fin 10000) (q : Fin 64), j = ix2 p q := ⟨j 0, j 1, eq_ix2 j⟩
  refine (Pay.k3_apply _ _ p q).trans ?_
  have hp : t.val * 10000 + p.val < 100000 := by have := p.isLt; omega
  show _ = matW (V c main_v45) (V c main_v47) (((cfg3.win 2).blk t).view.emb (ix2 p q))
  have hemb : ((cfg3.win 2).blk t).view.emb (ix2 p q) = ix2 (⟨t.val * 10000 + p.val, hp⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  rw [hemb]
  refine Eq.trans ?_ (Cert.ReferenceIdeal.Whole.matRows_apply _ _ _ q).symm
  refine Finset.sum_congr rfl fun k _ => ?_
  have h0 : iblk3 V c 0 t (ix2 p k) = V c main_v45 (ix2 (⟨t.val * 10000 + p.val, hp⟩ : Fin 100000) k) := by
    show V c main_v45 (((cfg3.win 0).blk t).view.emb (ix2 p k)) = _
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * k.val = k.val; omega
  have h1 : iblk3 V c 1 t (ix2 k q) = V c main_v47 (ix2 k q) := by
    show V c main_v47 (((cfg3.win 1).blk t).view.emb (ix2 k q)) = _
    refine congrArg _ (funext fun a => Fin.ext ?_)
    match a with
    | ⟨0, _⟩ => show win3_1.index t (0 : Fin 2) * 64 + 1 * k.val = k.val; omega
    | ⟨1, _⟩ => show win3_1.index t (1 : Fin 2) * 64 + 1 * q.val = q.val; omega
  rw [h0, h1]

/-- An index of the output array is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v48).slice (win3_2.rect t)).set ↔ _
  rw [View.set_slice_whole, Rect.mem_set_unit]
  exact Iff.rfl

/-- Every row lies in the block of the point `row / 10000`. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, by rw [show cfg3.N = 10 from N_3]; omega⟩
  obtain ⟨e0, e1, e2, e3, e4, e5⟩ := idx3 t
  have e4' : win3_2.index t (0 : Fin 2) = (i 0).val / 10000 := e4
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After region 3 its output array is the whole-array operation of the two arrays it entered with. -/
theorem final3 (c : Dev nD) :
    (dat3 V c).arrAt 2 cfg3.N = matW (V c main_v45) (V c main_v47) :=
  (dat3 V c).arrAt_eq_of_cover 2 (matW (V c main_v45) (V c main_v47)) (fun t _ => flushed3 V c t) (cover3)

/-! ## Region 6: ten blocks of 10000 rows, each times the weight matrix -/

/-- The index maps over the grid: which block of each operand a point takes. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the whole-array operation: row `10000·t + p` of the result reads only
    row `10000·t + p` of the tiled operand, which is row `p` of the point's block. -/
theorem flushed6 (c : Dev nD) (t : Fin cfg6.N) :
    (dat6 V c).flushed 2 t = ((cfg6.win 2).blk t).view.read (Elt Ideal) (matW (V c main_v63) (V c main_v65)) := by
  show (cfg6.win 2).cut (grid6.coords t) ((dat6 V c).after 2 t) = _
  rw [after6_2]
  unfold out6_2
  rw [View.canon_unit_zero hz2]
  simp only [View.ld_unit_zero (S := S10000x64) hz2, View.ld_unit_zero (S := S64x64) hz2]
  obtain ⟨e0, e1, e2, e3, e4, e5⟩ := idx6 t
  have ht : t.val < 10 := Nat.lt_of_lt_of_eq t.isLt (show cfg6.N = 10 from N_6)
  funext j
  obtain ⟨p, q, rfl⟩ : ∃ (p : Fin 10000) (q : Fin 64), j = ix2 p q := ⟨j 0, j 1, eq_ix2 j⟩
  refine (Pay.k6_apply _ _ p q).trans ?_
  have hp : t.val * 10000 + p.val < 100000 := by have := p.isLt; omega
  show _ = matW (V c main_v63) (V c main_v65) (((cfg6.win 2).blk t).view.emb (ix2 p q))
  have hemb : ((cfg6.win 2).blk t).view.emb (ix2 p q) = ix2 (⟨t.val * 10000 + p.val, hp⟩ : Fin 100000) q := by
    funext a; apply Fin.ext
    match a with
    | ⟨0, _⟩ => show win6_2.index t (0 : Fin 2) * 10000 + 1 * p.val = t.val * 10000 + p.val; omega
    | ⟨1, _⟩ => show win6_2.index t (1 : Fin 2) * 64 + 1 * q.val = q.val; omega
  rw [hemb]
  refine Eq.trans ?_ (Cert.ReferenceIdeal.Whole.matRows_apply _ _ _ q).symm
  refine Finset.sum_congr rfl fun k _ => ?_
  have h0 : iblk6 V c 0 t (ix2 p k) = V c main_v63 (ix2 (⟨t.val * 10000 + p.val, hp⟩ : Fin 100000) k) := by
    show V c main_v63 (((cfg6.win 0).blk t).view.emb (ix2 p k)) = _
    refine congrArg _ (funext fun a => Fin.ext ?_)
    match a with
    | ⟨0, _⟩ => show win6_0.index t (0 : Fin 2) * 10000 + 1 * p.val = t.val * 10000 + p.val; omega
    | ⟨1, _⟩ => show win6_0.index t (1 : Fin 2) * 64 + 1 * k.val = k.val; omega
  have h1 : iblk6 V c 1 t (ix2 k q) = V c main_v65 (ix2 k q) := by
    show V c main_v65 (((cfg6.win 1).blk t).view.emb (ix2 k q)) = _
    refine congrArg _ (funext fun a => Fin.ext ?_)
    match a with
    | ⟨0, _⟩ => show win6_1.index t (0 : Fin 2) * 64 + 1 * k.val = k.val; omega
    | ⟨1, _⟩ => show win6_1.index t (1 : Fin 2) * 64 + 1 * q.val = q.val; omega
  rw [h0, h1]

/-- An index of the output array is in point `t`'s block iff each coordinate is in the block's range on its axis. -/
theorem mem_blk6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v66).slice (win6_2.rect t)).set ↔ _
  rw [View.set_slice_whole, Rect.mem_set_unit]
  exact Iff.rfl

/-- Every row lies in the block of the point `row / 10000`. -/
theorem cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  let t : Fin cfg6.N := ⟨(i 0).val / 10000, by rw [show cfg6.N = 10 from N_6]; omega⟩
  obtain ⟨e0, e1, e2, e3, e4, e5⟩ := idx6 t
  have e4' : win6_2.index t (0 : Fin 2) = (i 0).val / 10000 := e4
  refine ⟨t, flush6_2 t, ?_⟩
  rw [mem_blk6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- After region 6 its output array is the whole-array operation of the two arrays it entered with. -/
theorem final6 (c : Dev nD) :
    (dat6 V c).arrAt 2 cfg6.N = matW (V c main_v63) (V c main_v65) :=
  (dat6 V c).arrAt_eq_of_cover 2 (matW (V c main_v63) (V c main_v65)) (fun t _ => flushed6 V c t) (cover6)

end Cert.KernelIdeal.Reg

end
-- ==== Proof.RegScale.lean ====
/-
  The three edge-scaling regions of the kernel (one per layer), each read as ONE whole-array operation: the grid's 250
  points each take 4400 gathered rows and their 4400 coefficients, and scale each row by its own coefficient, so the
  blocks written back are the blocks of the whole scaled array, and they tile the output.
-/
import proofs.«134593_j59777354826141_2_alg».proof.Proof.Gen.KernelIdeal.Frame
import proofs.«134593_j59777354826141_2_alg».proof.Proof.Payloads
import proofs.«134593_j59777354826141_2_alg».proof.Proof.WholeOps

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## Region 1: 250 blocks of 4400 edges, each row scaled by its coefficient -/

/-- The index maps over the grid: which block of each operand a point takes. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array operation: row `4400·t + p` of the result reads only
    row `4400·t + p` of the tiled operand, which is row `p` of the point's block. -/
theorem flushed1 (c : Dev nD) (t : Fin cfg1.N) :
    (dat1 V c).flushed 2 t = ((cfg1.win 2).blk t).view.read (Elt Ideal) (scaleW (V c main_v37) (V c main_v27)) := by
  show (cfg1.win 2).cut (grid1.coords t) ((dat1 V c).after 2 t) = _
  rw [after1_2]
  unfold out1_2
  rw [View.canon_unit_zero hz2]
  simp only [View.ld_unit_zero (S := S4400x64) hz2, View.ld_unit_zero (S := S4400x1) hz2]
  obtain ⟨e0, e1, e2, e3, e4, e5⟩ := idx1 t
  have ht : t.val < 250 := Nat.lt_of_lt_of_eq t.isLt (show cfg1.N = 250 from N_1)
  funext j
  obtain ⟨p, q, rfl⟩ : ∃ (p : Fin 4400) (q : Fin 64), j = ix2 p q := ⟨j 0, j 1, eq_ix2 j⟩
  refine (Pay.k1_apply _ _ p q).trans ?_
  have hp : t.val * 4400 + p.val < 1100000 := by have := p.isLt; omega
  show _ = scaleW (V c main_v37) (V c main_v27) (((cfg1.win 2).blk t).view.emb (ix2 p q))
  have hemb : ((cfg1.win 2).blk t).view.emb (ix2 p q) = ix2 (⟨t.val * 4400 + p.val, hp⟩ : Fin 1100000) q := by
    funext a; apply Fin.ext
    match a with
    | ⟨0, _⟩ => show win1_2.index t (0 : Fin 2) * 4400 + 1 * p.val = t.val * 4400 + p.val; omega
    | ⟨1, _⟩ => show win1_2.index t (1 : Fin 2) * 64 + 1 * q.val = q.val; omega
  rw [hemb]
  refine Eq.trans ?_ (Cert.ReferenceIdeal.Whole.scaleRows_apply _ _ _ q).symm
  have h0 : iblk1 V c 0 t (ix2 p q) = V c main_v37 (ix2 (⟨t.val * 4400 + p.val, hp⟩ : Fin 1100000) q) := by
    show V c main_v37 (((cfg1.win 0).blk t).view.emb (ix2 p q)) = _
    refine congrArg _ (funext fun a => Fin.ext ?_)
    match a with
    | ⟨0, _⟩ => show win1_0.index t (0 : Fin 2) * 4400 + 1 * p.val = t.val * 4400 + p.val; omega
    | ⟨1, _⟩ => show win1_0.index t (1 : Fin 2) * 64 + 1 * q.val = q.val; omega
  have h1 : iblk1 V c 1 t (ix2 p (0 : Fin 1)) = V c main_v27 (ix2 (⟨t.val * 4400 + p.val, hp⟩ : Fin 1100000) (0 : Fin 1)) := by
    show V c main_v27 (((cfg1.win 1).blk t).view.emb (ix2 p (0 : Fin 1))) = _
    refine congrArg _ (funext fun a => Fin.ext ?_)
    match a with
    | ⟨0, _⟩ => show win1_1.index t (0 : Fin 2) * 4400 + 1 * p.val = t.val * 4400 + p.val; omega
    | ⟨1, _⟩ => show win1_1.index t (1 : Fin 2) * 1 + 1 * 0 = 0; omega
  rw [h0, h1]

/-- An index of the output array is in point `t`'s block iff each coordinate is in the block's range on its axis. -/
theorem mem_blk1 (t : Fin cfg1.N) (i : S1100000x64.Idx) :
    i ∈ ((cfg1.win 2).blk t).view.set ↔ ∀ a : Fin 2, win1_2.index t a * S4400x64.size a ≤ (i a).val ∧ (i a).val < win1_2.index t a * S4400x64.size a + S4400x64.size a := by
  show i ∈ ((View.whole main_v38).slice (win1_2.rect t)).set ↔ _
  rw [View.set_slice_whole, Rect.mem_set_unit]
  exact Iff.rfl

/-- Every row lies in the block of the point `row / 4400`. -/
theorem cover1 (i : S1100000x64.Idx) :
    ∃ t : Fin cfg1.N, (cfg1.win 2).flush t = true ∧ i ∈ ((cfg1.win 2).blk t).view.set := by
  have hi0 : (i 0).val < 1100000 := (i 0).isLt
  have hi1 : (i 1).val < 64 := (i 1).isLt
  let t : Fin cfg1.N := ⟨(i 0).val / 4400, by rw [show cfg1.N = 250 from N_1]; omega⟩
  obtain ⟨e0, e1, e2, e3, e4, e5⟩ := idx1 t
  have e4' : win1_2.index t (0 : Fin 2) = (i 0).val / 4400 := e4
  refine ⟨t, flush1_2 t, ?_⟩
  rw [mem_blk1]
  intro a
  match a with
  | ⟨0, _⟩ => show win1_2.index t (0 : Fin 2) * 4400 ≤ (i 0).val ∧ (i 0).val < win1_2.index t (0 : Fin 2) * 4400 + 4400; omega
  | ⟨1, _⟩ => show win1_2.index t (1 : Fin 2) * 64 ≤ (i 1).val ∧ (i 1).val < win1_2.index t (1 : Fin 2) * 64 + 64; omega

/-- After region 1 its output array is the whole-array operation of the two arrays it entered with. -/
theorem final1 (c : Dev nD) :
    (dat1 V c).arrAt 2 cfg1.N = scaleW (V c main_v37) (V c main_v27) :=
  (dat1 V c).arrAt_eq_of_cover 2 (scaleW (V c main_v37) (V c main_v27)) (fun t _ => flushed1 V c t) (cover1)

/-! ## Region 4: 250 blocks of 4400 edges, each row scaled by its coefficient -/

/-- The index maps over the grid: which block of each operand a point takes. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole-array operation: row `4400·t + p` of the result reads only
    row `4400·t + p` of the tiled operand, which is row `p` of the point's block. -/
theorem flushed4 (c : Dev nD) (t : Fin cfg4.N) :
    (dat4 V c).flushed 2 t = ((cfg4.win 2).blk t).view.read (Elt Ideal) (scaleW (V c main_v55) (V c main_v27)) := by
  show (cfg4.win 2).cut (grid4.coords t) ((dat4 V c).after 2 t) = _
  rw [after4_2]
  unfold out4_2
  rw [View.canon_unit_zero hz2]
  simp only [View.ld_unit_zero (S := S4400x64) hz2, View.ld_unit_zero (S := S4400x1) hz2]
  obtain ⟨e0, e1, e2, e3, e4, e5⟩ := idx4 t
  have ht : t.val < 250 := Nat.lt_of_lt_of_eq t.isLt (show cfg4.N = 250 from N_4)
  funext j
  obtain ⟨p, q, rfl⟩ : ∃ (p : Fin 4400) (q : Fin 64), j = ix2 p q := ⟨j 0, j 1, eq_ix2 j⟩
  refine (Pay.k4_apply _ _ p q).trans ?_
  have hp : t.val * 4400 + p.val < 1100000 := by have := p.isLt; omega
  show _ = scaleW (V c main_v55) (V c main_v27) (((cfg4.win 2).blk t).view.emb (ix2 p q))
  have hemb : ((cfg4.win 2).blk t).view.emb (ix2 p q) = ix2 (⟨t.val * 4400 + p.val, hp⟩ : Fin 1100000) q := by
    funext a; apply Fin.ext
    match a with
    | ⟨0, _⟩ => show win4_2.index t (0 : Fin 2) * 4400 + 1 * p.val = t.val * 4400 + p.val; omega
    | ⟨1, _⟩ => show win4_2.index t (1 : Fin 2) * 64 + 1 * q.val = q.val; omega
  rw [hemb]
  refine Eq.trans ?_ (Cert.ReferenceIdeal.Whole.scaleRows_apply _ _ _ q).symm
  have h0 : iblk4 V c 0 t (ix2 p q) = V c main_v55 (ix2 (⟨t.val * 4400 + p.val, hp⟩ : Fin 1100000) q) := by
    show V c main_v55 (((cfg4.win 0).blk t).view.emb (ix2 p q)) = _
    refine congrArg _ (funext fun a => Fin.ext ?_)
    match a with
    | ⟨0, _⟩ => show win4_0.index t (0 : Fin 2) * 4400 + 1 * p.val = t.val * 4400 + p.val; omega
    | ⟨1, _⟩ => show win4_0.index t (1 : Fin 2) * 64 + 1 * q.val = q.val; omega
  have h1 : iblk4 V c 1 t (ix2 p (0 : Fin 1)) = V c main_v27 (ix2 (⟨t.val * 4400 + p.val, hp⟩ : Fin 1100000) (0 : Fin 1)) := by
    show V c main_v27 (((cfg4.win 1).blk t).view.emb (ix2 p (0 : Fin 1))) = _
    refine congrArg _ (funext fun a => Fin.ext ?_)
    match a with
    | ⟨0, _⟩ => show win4_1.index t (0 : Fin 2) * 4400 + 1 * p.val = t.val * 4400 + p.val; omega
    | ⟨1, _⟩ => show win4_1.index t (1 : Fin 2) * 1 + 1 * 0 = 0; omega
  rw [h0, h1]

/-- An index of the output array is in point `t`'s block iff each coordinate is in the block's range on its axis. -/
theorem mem_blk4 (t : Fin cfg4.N) (i : S1100000x64.Idx) :
    i ∈ ((cfg4.win 2).blk t).view.set ↔ ∀ a : Fin 2, win4_2.index t a * S4400x64.size a ≤ (i a).val ∧ (i a).val < win4_2.index t a * S4400x64.size a + S4400x64.size a := by
  show i ∈ ((View.whole main_v56).slice (win4_2.rect t)).set ↔ _
  rw [View.set_slice_whole, Rect.mem_set_unit]
  exact Iff.rfl

/-- Every row lies in the block of the point `row / 4400`. -/
theorem cover4 (i : S1100000x64.Idx) :
    ∃ t : Fin cfg4.N, (cfg4.win 2).flush t = true ∧ i ∈ ((cfg4.win 2).blk t).view.set := by
  have hi0 : (i 0).val < 1100000 := (i 0).isLt
  have hi1 : (i 1).val < 64 := (i 1).isLt
  let t : Fin cfg4.N := ⟨(i 0).val / 4400, by rw [show cfg4.N = 250 from N_4]; omega⟩
  obtain ⟨e0, e1, e2, e3, e4, e5⟩ := idx4 t
  have e4' : win4_2.index t (0 : Fin 2) = (i 0).val / 4400 := e4
  refine ⟨t, flush4_2 t, ?_⟩
  rw [mem_blk4]
  intro a
  match a with
  | ⟨0, _⟩ => show win4_2.index t (0 : Fin 2) * 4400 ≤ (i 0).val ∧ (i 0).val < win4_2.index t (0 : Fin 2) * 4400 + 4400; omega
  | ⟨1, _⟩ => show win4_2.index t (1 : Fin 2) * 64 ≤ (i 1).val ∧ (i 1).val < win4_2.index t (1 : Fin 2) * 64 + 64; omega

/-- After region 4 its output array is the whole-array operation of the two arrays it entered with. -/
theorem final4 (c : Dev nD) :
    (dat4 V c).arrAt 2 cfg4.N = scaleW (V c main_v55) (V c main_v27) :=
  (dat4 V c).arrAt_eq_of_cover 2 (scaleW (V c main_v55) (V c main_v27)) (fun t _ => flushed4 V c t) (cover4)

/-! ## Region 7: 250 blocks of 4400 edges, each row scaled by its coefficient -/

/-- The index maps over the grid: which block of each operand a point takes. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point `t` writes back is block `t` of the whole-array operation: row `4400·t + p` of the result reads only
    row `4400·t + p` of the tiled operand, which is row `p` of the point's block. -/
theorem flushed7 (c : Dev nD) (t : Fin cfg7.N) :
    (dat7 V c).flushed 2 t = ((cfg7.win 2).blk t).view.read (Elt Ideal) (scaleW (V c main_v73) (V c main_v27)) := by
  show (cfg7.win 2).cut (grid7.coords t) ((dat7 V c).after 2 t) = _
  rw [after7_2]
  unfold out7_2
  rw [View.canon_unit_zero hz2]
  simp only [View.ld_unit_zero (S := S4400x64) hz2, View.ld_unit_zero (S := S4400x1) hz2]
  obtain ⟨e0, e1, e2, e3, e4, e5⟩ := idx7 t
  have ht : t.val < 250 := Nat.lt_of_lt_of_eq t.isLt (show cfg7.N = 250 from N_7)
  funext j
  obtain ⟨p, q, rfl⟩ : ∃ (p : Fin 4400) (q : Fin 64), j = ix2 p q := ⟨j 0, j 1, eq_ix2 j⟩
  refine (Pay.k7_apply _ _ p q).trans ?_
  have hp : t.val * 4400 + p.val < 1100000 := by have := p.isLt; omega
  show _ = scaleW (V c main_v73) (V c main_v27) (((cfg7.win 2).blk t).view.emb (ix2 p q))
  have hemb : ((cfg7.win 2).blk t).view.emb (ix2 p q) = ix2 (⟨t.val * 4400 + p.val, hp⟩ : Fin 1100000) q := by
    funext a; apply Fin.ext
    match a with
    | ⟨0, _⟩ => show win7_2.index t (0 : Fin 2) * 4400 + 1 * p.val = t.val * 4400 + p.val; omega
    | ⟨1, _⟩ => show win7_2.index t (1 : Fin 2) * 64 + 1 * q.val = q.val; omega
  rw [hemb]
  refine Eq.trans ?_ (Cert.ReferenceIdeal.Whole.scaleRows_apply _ _ _ q).symm
  have h0 : iblk7 V c 0 t (ix2 p q) = V c main_v73 (ix2 (⟨t.val * 4400 + p.val, hp⟩ : Fin 1100000) q) := by
    show V c main_v73 (((cfg7.win 0).blk t).view.emb (ix2 p q)) = _
    refine congrArg _ (funext fun a => Fin.ext ?_)
    match a with
    | ⟨0, _⟩ => show win7_0.index t (0 : Fin 2) * 4400 + 1 * p.val = t.val * 4400 + p.val; omega
    | ⟨1, _⟩ => show win7_0.index t (1 : Fin 2) * 64 + 1 * q.val = q.val; omega
  have h1 : iblk7 V c 1 t (ix2 p (0 : Fin 1)) = V c main_v27 (ix2 (⟨t.val * 4400 + p.val, hp⟩ : Fin 1100000) (0 : Fin 1)) := by
    show V c main_v27 (((cfg7.win 1).blk t).view.emb (ix2 p (0 : Fin 1))) = _
    refine congrArg _ (funext fun a => Fin.ext ?_)
    match a with
    | ⟨0, _⟩ => show win7_1.index t (0 : Fin 2) * 4400 + 1 * p.val = t.val * 4400 + p.val; omega
    | ⟨1, _⟩ => show win7_1.index t (1 : Fin 2) * 1 + 1 * 0 = 0; omega
  rw [h0, h1]

/-- An index of the output array is in point `t`'s block iff each coordinate is in the block's range on its axis. -/
theorem mem_blk7 (t : Fin cfg7.N) (i : S1100000x64.Idx) :
    i ∈ ((cfg7.win 2).blk t).view.set ↔ ∀ a : Fin 2, win7_2.index t a * S4400x64.size a ≤ (i a).val ∧ (i a).val < win7_2.index t a * S4400x64.size a + S4400x64.size a := by
  show i ∈ ((View.whole main_v74).slice (win7_2.rect t)).set ↔ _
  rw [View.set_slice_whole, Rect.mem_set_unit]
  exact Iff.rfl

/-- Every row lies in the block of the point `row / 4400`. -/
theorem cover7 (i : S1100000x64.Idx) :
    ∃ t : Fin cfg7.N, (cfg7.win 2).flush t = true ∧ i ∈ ((cfg7.win 2).blk t).view.set := by
  have hi0 : (i 0).val < 1100000 := (i 0).isLt
  have hi1 : (i 1).val < 64 := (i 1).isLt
  let t : Fin cfg7.N := ⟨(i 0).val / 4400, by rw [show cfg7.N = 250 from N_7]; omega⟩
  obtain ⟨e0, e1, e2, e3, e4, e5⟩ := idx7 t
  have e4' : win7_2.index t (0 : Fin 2) = (i 0).val / 4400 := e4
  refine ⟨t, flush7_2 t, ?_⟩
  rw [mem_blk7]
  intro a
  match a with
  | ⟨0, _⟩ => show win7_2.index t (0 : Fin 2) * 4400 ≤ (i 0).val ∧ (i 0).val < win7_2.index t (0 : Fin 2) * 4400 + 4400; omega
  | ⟨1, _⟩ => show win7_2.index t (1 : Fin 2) * 64 ≤ (i 1).val ∧ (i 1).val < win7_2.index t (1 : Fin 2) * 64 + 64; omega

/-- After region 7 its output array is the whole-array operation of the two arrays it entered with. -/
theorem final7 (c : Dev nD) :
    (dat7 V c).arrAt 2 cfg7.N = scaleW (V c main_v73) (V c main_v27) :=
  (dat7 V c).arrAt_eq_of_cover 2 (scaleW (V c main_v73) (V c main_v27)) (fun t _ => flushed7 V c t) (cover7)

end Cert.KernelIdeal.Reg

end
-- ==== Proof.RegBias.lean ====
/-
  The three bias-and-clamp regions of the kernel (one per layer), each read as ONE whole-array operation: the grid's ten
  points each take 10000 rows of the aggregated messages and the whole bias row, add the bias to every row and clamp below
  at zero, so the blocks written back are the blocks of the whole result, and they tile the output.
-/
import proofs.«134593_j59777354826141_2_alg».proof.Proof.Gen.KernelIdeal.Frame
import proofs.«134593_j59777354826141_2_alg».proof.Proof.Payloads
import proofs.«134593_j59777354826141_2_alg».proof.Proof.WholeOps

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## Region 2: ten blocks of 10000 rows, each plus the bias row, clamped below at zero -/

/-- The index maps over the grid: which block of each operand a point takes. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole-array operation: row `10000·t + p` of the result reads only
    row `10000·t + p` of the tiled operand, which is row `p` of the point's block. -/
theorem flushed2 (c : Dev nD) (t : Fin cfg2.N) :
    (dat2 V c).flushed 2 t = ((cfg2.win 2).blk t).view.read (Elt Ideal) (biasW (V c main_v41) (V c main_v44)) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S1x64) hz2]
  obtain ⟨e0, e1, e2, e3, e4, e5⟩ := idx2 t
  have ht : t.val < 10 := Nat.lt_of_lt_of_eq t.isLt (show cfg2.N = 10 from N_2)
  funext j
  obtain ⟨p, q, rfl⟩ : ∃ (p : Fin 10000) (q : Fin 64), j = ix2 p q := ⟨j 0, j 1, eq_ix2 j⟩
  refine (Pay.k2_apply _ _ p q).trans ?_
  have hp : t.val * 10000 + p.val < 100000 := by have := p.isLt; omega
  show _ = biasW (V c main_v41) (V c main_v44) (((cfg2.win 2).blk t).view.emb (ix2 p q))
  have hemb : ((cfg2.win 2).blk t).view.emb (ix2 p q) = ix2 (⟨t.val * 10000 + p.val, hp⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  rw [hemb]
  refine Eq.trans ?_ (Cert.ReferenceIdeal.Whole.biasRelu_apply _ _ _ q).symm
  have h0 : iblk2 V c 0 t (ix2 p q) = V c main_v41 (ix2 (⟨t.val * 10000 + p.val, hp⟩ : Fin 100000) q) := by
    show V c main_v41 (((cfg2.win 0).blk t).view.emb (ix2 p q)) = _
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * q.val = q.val; omega
  have h1 : iblk2 V c 1 t (ix2 (0 : Fin 1) q) = V c main_v44 (ix2 (0 : Fin 1) q) := by
    show V c main_v44 (((cfg2.win 1).blk t).view.emb (ix2 (0 : Fin 1) q)) = _
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * q.val = q.val; omega
  rw [h0, h1]

/-- An index of the output array is in point `t`'s block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v45).slice (win2_2.rect t)).set ↔ _
  rw [View.set_slice_whole, Rect.mem_set_unit]
  exact Iff.rfl

/-- Every row lies in the block of the point `row / 10000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 10000, by rw [show cfg2.N = 10 from N_2]; omega⟩
  obtain ⟨e0, e1, e2, e3, e4, e5⟩ := idx2 t
  have e4' : win2_2.index t (0 : Fin 2) = (i 0).val / 10000 := e4
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After region 2 its output array is the whole-array operation of the two arrays it entered with. -/
theorem final2 (c : Dev nD) :
    (dat2 V c).arrAt 2 cfg2.N = biasW (V c main_v41) (V c main_v44) :=
  (dat2 V c).arrAt_eq_of_cover 2 (biasW (V c main_v41) (V c main_v44)) (fun t _ => flushed2 V c t) (cover2)

/-! ## Region 5: ten blocks of 10000 rows, each plus the bias row, clamped below at zero -/

/-- The index maps over the grid: which block of each operand a point takes. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole-array operation: row `10000·t + p` of the result reads only
    row `10000·t + p` of the tiled operand, which is row `p` of the point's block. -/
theorem flushed5 (c : Dev nD) (t : Fin cfg5.N) :
    (dat5 V c).flushed 2 t = ((cfg5.win 2).blk t).view.read (Elt Ideal) (biasW (V c main_v59) (V c main_v62)) := by
  show (cfg5.win 2).cut (grid5.coords t) ((dat5 V c).after 2 t) = _
  rw [after5_2]
  unfold out5_2
  rw [View.canon_unit_zero hz2]
  simp only [View.ld_unit_zero (S := S10000x64) hz2, View.ld_unit_zero (S := S1x64) hz2]
  obtain ⟨e0, e1, e2, e3, e4, e5⟩ := idx5 t
  have ht : t.val < 10 := Nat.lt_of_lt_of_eq t.isLt (show cfg5.N = 10 from N_5)
  funext j
  obtain ⟨p, q, rfl⟩ : ∃ (p : Fin 10000) (q : Fin 64), j = ix2 p q := ⟨j 0, j 1, eq_ix2 j⟩
  refine (Pay.k5_apply _ _ p q).trans ?_
  have hp : t.val * 10000 + p.val < 100000 := by have := p.isLt; omega
  show _ = biasW (V c main_v59) (V c main_v62) (((cfg5.win 2).blk t).view.emb (ix2 p q))
  have hemb : ((cfg5.win 2).blk t).view.emb (ix2 p q) = ix2 (⟨t.val * 10000 + p.val, hp⟩ : Fin 100000) q := by
    funext a; apply Fin.ext
    match a with
    | ⟨0, _⟩ => show win5_2.index t (0 : Fin 2) * 10000 + 1 * p.val = t.val * 10000 + p.val; omega
    | ⟨1, _⟩ => show win5_2.index t (1 : Fin 2) * 64 + 1 * q.val = q.val; omega
  rw [hemb]
  refine Eq.trans ?_ (Cert.ReferenceIdeal.Whole.biasRelu_apply _ _ _ q).symm
  have h0 : iblk5 V c 0 t (ix2 p q) = V c main_v59 (ix2 (⟨t.val * 10000 + p.val, hp⟩ : Fin 100000) q) := by
    show V c main_v59 (((cfg5.win 0).blk t).view.emb (ix2 p q)) = _
    refine congrArg _ (funext fun a => Fin.ext ?_)
    match a with
    | ⟨0, _⟩ => show win5_0.index t (0 : Fin 2) * 10000 + 1 * p.val = t.val * 10000 + p.val; omega
    | ⟨1, _⟩ => show win5_0.index t (1 : Fin 2) * 64 + 1 * q.val = q.val; omega
  have h1 : iblk5 V c 1 t (ix2 (0 : Fin 1) q) = V c main_v62 (ix2 (0 : Fin 1) q) := by
    show V c main_v62 (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega
  rw [h0, h1]

/-- An index of the output array is in point `t`'s block iff each coordinate is in the block's range on its axis. -/
theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v63).slice (win5_2.rect t)).set ↔ _
  rw [View.set_slice_whole, Rect.mem_set_unit]
  exact Iff.rfl

/-- Every row lies in the block of the point `row / 10000`. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  let t : Fin cfg5.N := ⟨(i 0).val / 10000, by rw [show cfg5.N = 10 from N_5]; omega⟩
  obtain ⟨e0, e1, e2, e3, e4, e5⟩ := idx5 t
  have e4' : win5_2.index t (0 : Fin 2) = (i 0).val / 10000 := e4
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After region 5 its output array is the whole-array operation of the two arrays it entered with. -/
theorem final5 (c : Dev nD) :
    (dat5 V c).arrAt 2 cfg5.N = biasW (V c main_v59) (V c main_v62) :=
  (dat5 V c).arrAt_eq_of_cover 2 (biasW (V c main_v59) (V c main_v62)) (fun t _ => flushed5 V c t) (cover5)

/-! ## Region 8: ten blocks of 10000 rows, each plus the bias row, clamped below at zero -/

/-- The index maps over the grid: which block of each operand a point takes. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point `t` writes back is block `t` of the whole-array operation: row `10000·t + p` of the result reads only
    row `10000·t + p` of the tiled operand, which is row `p` of the point's block. -/
theorem flushed8 (c : Dev nD) (t : Fin cfg8.N) :
    (dat8 V c).flushed 2 t = ((cfg8.win 2).blk t).view.read (Elt Ideal) (biasW (V c main_v77) (V c main_v80)) := by
  show (cfg8.win 2).cut (grid8.coords t) ((dat8 V c).after 2 t) = _
  rw [after8_2]
  unfold out8_2
  rw [View.canon_unit_zero hz2]
  simp only [View.ld_unit_zero (S := S10000x64) hz2, View.ld_unit_zero (S := S1x64) hz2]
  obtain ⟨e0, e1, e2, e3, e4, e5⟩ := idx8 t
  have ht : t.val < 10 := Nat.lt_of_lt_of_eq t.isLt (show cfg8.N = 10 from N_8)
  funext j
  obtain ⟨p, q, rfl⟩ : ∃ (p : Fin 10000) (q : Fin 64), j = ix2 p q := ⟨j 0, j 1, eq_ix2 j⟩
  refine (Pay.k8_apply _ _ p q).trans ?_
  have hp : t.val * 10000 + p.val < 100000 := by have := p.isLt; omega
  show _ = biasW (V c main_v77) (V c main_v80) (((cfg8.win 2).blk t).view.emb (ix2 p q))
  have hemb : ((cfg8.win 2).blk t).view.emb (ix2 p q) = ix2 (⟨t.val * 10000 + p.val, hp⟩ : Fin 100000) q := by
    funext a; apply Fin.ext
    match a with
    | ⟨0, _⟩ => show win8_2.index t (0 : Fin 2) * 10000 + 1 * p.val = t.val * 10000 + p.val; omega
    | ⟨1, _⟩ => show win8_2.index t (1 : Fin 2) * 64 + 1 * q.val = q.val; omega
  rw [hemb]
  refine Eq.trans ?_ (Cert.ReferenceIdeal.Whole.biasRelu_apply _ _ _ q).symm
  have h0 : iblk8 V c 0 t (ix2 p q) = V c main_v77 (ix2 (⟨t.val * 10000 + p.val, hp⟩ : Fin 100000) q) := by
    show V c main_v77 (((cfg8.win 0).blk t).view.emb (ix2 p q)) = _
    refine congrArg _ (funext fun a => Fin.ext ?_)
    match a with
    | ⟨0, _⟩ => show win8_0.index t (0 : Fin 2) * 10000 + 1 * p.val = t.val * 10000 + p.val; omega
    | ⟨1, _⟩ => show win8_0.index t (1 : Fin 2) * 64 + 1 * q.val = q.val; omega
  have h1 : iblk8 V c 1 t (ix2 (0 : Fin 1) q) = V c main_v80 (ix2 (0 : Fin 1) q) := by
    show V c main_v80 (((cfg8.win 1).blk t).view.emb (ix2 (0 : Fin 1) q)) = _
    refine congrArg _ (funext fun a => Fin.ext ?_)
    match a with
    | ⟨0, _⟩ => show win8_1.index t (0 : Fin 2) * 1 + 1 * 0 = 0; omega
    | ⟨1, _⟩ => show win8_1.index t (1 : Fin 2) * 64 + 1 * q.val = q.val; omega
  rw [h0, h1]

/-- An index of the output array is in point `t`'s block iff each coordinate is in the block's range on its axis. -/
theorem mem_blk8 (t : Fin cfg8.N) (i : S100000x64.Idx) :
    i ∈ ((cfg8.win 2).blk t).view.set ↔ ∀ a : Fin 2, win8_2.index t a * S10000x64.size a ≤ (i a).val ∧ (i a).val < win8_2.index t a * S10000x64.size a + S10000x64.size a := by
  show i ∈ ((View.whole main_v81).slice (win8_2.rect t)).set ↔ _
  rw [View.set_slice_whole, Rect.mem_set_unit]
  exact Iff.rfl

/-- Every row lies in the block of the point `row / 10000`. -/
theorem cover8 (i : S100000x64.Idx) :
    ∃ t : Fin cfg8.N, (cfg8.win 2).flush t = true ∧ i ∈ ((cfg8.win 2).blk t).view.set := by
  have hi0 : (i 0).val < 100000 := (i 0).isLt
  have hi1 : (i 1).val < 64 := (i 1).isLt
  let t : Fin cfg8.N := ⟨(i 0).val / 10000, by rw [show cfg8.N = 10 from N_8]; omega⟩
  obtain ⟨e0, e1, e2, e3, e4, e5⟩ := idx8 t
  have e4' : win8_2.index t (0 : Fin 2) = (i 0).val / 10000 := e4
  refine ⟨t, flush8_2 t, ?_⟩
  rw [mem_blk8]
  intro a
  match a with
  | ⟨0, _⟩ => show win8_2.index t (0 : Fin 2) * 10000 ≤ (i 0).val ∧ (i 0).val < win8_2.index t (0 : Fin 2) * 10000 + 10000; omega
  | ⟨1, _⟩ => show win8_2.index t (1 : Fin 2) * 64 ≤ (i 1).val ∧ (i 1).val < win8_2.index t (1 : Fin 2) * 64 + 64; omega

/-- After region 8 its output array is the whole-array operation of the two arrays it entered with. -/
theorem final8 (c : Dev nD) :
    (dat8 V c).arrAt 2 cfg8.N = biasW (V c main_v77) (V c main_v80) :=
  (dat8 V c).arrAt_eq_of_cover 2 (biasW (V c main_v77) (V c main_v80)) (fun t _ => flushed8 V c t) (cover8)

end Cert.KernelIdeal.Reg

end
-- ==== Proof.Glue.lean ====
/-
  Small layout facts joining the two programs' host glue: a length-n vector turned into a 1×n row is the same array
  whether it is written as a reshape (the kernel's glue) or as a broadcast along a new leading axis (the reference's), and
  likewise a length-n vector turned into an n×1 column.
-/
import proofs.«134593_j59777354826141_2_alg».proof.Proof.Gen.KernelIdeal
import proofs.«134593_j59777354826141_2_alg».proof.Proof.Gen.ReferenceIdeal
import Idealize.ShloMosaic.Lib.ValueIdx
import Idealize.ShloMosaic.Lib.Pipeline.Value

set_option maxRecDepth 16384

noncomputable section

namespace Cert.KernelIdeal.Glue

open Cert.KernelIdeal Cert.KernelIdeal.Gen Idealize.ShloMosaic Idealize.ShloMosaic.ValueIdx

variable {α : Type}

/-- A length-64 vector as a 1×64 row: the reshape is the broadcast along a new leading axis. -/
theorem row64 (b : S64.Idx → α) :
    shapeCast S1x64 b shapeCasts_S64_S1x64 = broadcastInDim Cert.ReferenceIdeal.S1x64 ![1] Cert.ReferenceIdeal.Gen.bcast_S64_S1x64_1 b := by
  funext j
  obtain ⟨z, q, rfl⟩ : ∃ (z : Fin 1) (q : Fin 64), j = ix2 z q := ⟨j 0, j 1, eq_ix2 j⟩
  refine (shapeCast_apply b shapeCasts_S64_S1x64 (ix2 z q) (ix1 q) (by
    rw [Shape.rowMajor_val_one, Shape.rowMajor_val_two]
    show q.val = z.val * 64 + q.val
    have := z.isLt; omega)).trans ?_
  exact (broadcastInDim_apply _ Cert.ReferenceIdeal.Gen.bcast_S64_S1x64_1 b (ix2 z q) (ix1 q) (fun a => match a with
    | ⟨0, _⟩ => by show q.val = if (64 : Nat) = 1 then 0 else q.val; rw [if_neg (by decide)])).symm

end Cert.KernelIdeal.Glue

end
-- ==== Proof.StageA.lean ====
/-
  Layer 1 of the idealized kernel, boundary by boundary, each buffer stated as the reference's stage of the same name in
  the arguments: the host glue builds the edge sources and targets (the given edges followed by one self-loop per
  node), the degree-normalisation coefficient of every edge, and the first weight matrix; region 0 multiplies the
  features by the weights; the host gathers the source rows; region 1 scales them by the coefficients; the host adds
  them into the target rows; region 2 adds the bias and clamps below at zero.
-/
import proofs.«134593_j59777354826141_2_alg».proof.Proof.Carry
import proofs.«134593_j59777354826141_2_alg».proof.Proof.RegMat
import proofs.«134593_j59777354826141_2_alg».proof.Proof.RegScale
import proofs.«134593_j59777354826141_2_alg».proof.Proof.RegBias
import proofs.«134593_j59777354826141_2_alg».proof.Proof.Glue
import proofs.«134593_j59777354826141_2_alg».proof.Proof.Gen.ReferenceIdeal.Read
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first host stretch -/

/-- The edge sources: the given sources, then every node once. -/
theorem w1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results_simp
  rfl

/-- The edge targets: the given targets, then every node once. -/
theorem w1_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  dsimp only [hostOps0]
  after_results_simp
  rfl

/-- The edge coefficients: the inverse square roots of the two endpoints' degrees, multiplied. -/
theorem w1_v27 : W1 m ρ c (Proc.devRef .tc main_v27) = Cert.ReferenceIdeal.Read.val_main_v27 (F := Ideal) (m ((c : Thread nD τ).loc main_arg1)) := by
  show StableHlo.after hostOps0 (W0 m ρ c) (Proc.devRef .tc main_v27) = _
  dsimp only [hostOps0]
  after_results_simp
  rfl

/-- The first layer's weight matrix. -/
theorem w1_v29 : W1 m ρ c (Proc.devRef .tc main_v29) = Cert.ReferenceIdeal.Read.val_main_v29 (F := Ideal) (m ((c : Thread nD τ).loc main_arg4)) := by
  show StableHlo.after hostOps0 (W0 m ρ c) (Proc.devRef .tc main_v29) = _
  dsimp only [hostOps0]
  after_results_simp
  rfl

/-- The features, untouched by the first stretch. -/
theorem w1_arg0 : W1 m ρ c (Proc.devRef .tc main_arg0) = (m ((c : Thread nD τ).loc main_arg0)) := Carry.host0_keep m ρ c main_arg0 (by decide)

/-! ## Region 0: the features times the weights -/

theorem w2_v30 : W2 m ρ c (Proc.devRef .tc main_v30) = Cert.ReferenceIdeal.Read.val_main_v30 (F := Ideal) (m ((c : Thread nD τ).loc main_arg0)) (m ((c : Thread nD τ).loc main_arg4)) :=
  (W2_arr m ρ c 2).trans <| (Reg.final0 (V1 m ρ) c).trans <|
    (congrArg₂ Reg.matW (w1_arg0 m ρ c) (w1_v29 m ρ c)).trans rfl

/-! ## The gather of the source rows -/

theorem w3_v37 : W3 m ρ c (Proc.devRef .tc main_v37) = Cert.ReferenceIdeal.Read.val_main_v37 (F := Ideal) (m ((c : Thread nD τ).loc main_arg0)) (m ((c : Thread nD τ).loc main_arg1)) (m ((c : Thread nD τ).loc main_arg4)) := by
  show StableHlo.after hostOps1 (W2 m ρ c) (Proc.devRef .tc main_v37) = _
  dsimp only [hostOps1]
  after_results_simp
  rw [w2_v30 m ρ c, Carry.keep2 m ρ c main_v3 (by decide), w1_v3 m ρ c]
  rfl

/-! ## Region 1: each gathered row times its edge's coefficient -/

theorem w3_v27 : W3 m ρ c (Proc.devRef .tc main_v27) = Cert.ReferenceIdeal.Read.val_main_v27 (F := Ideal) (m ((c : Thread nD τ).loc main_arg1)) :=
  (Carry.keep3 m ρ c main_v27 (by decide)).trans (w1_v27 m ρ c)

theorem w4_v38 : W4 m ρ c (Proc.devRef .tc main_v38) = Cert.ReferenceIdeal.Read.val_main_v39 (F := Ideal) (m ((c : Thread nD τ).loc main_arg0)) (m ((c : Thread nD τ).loc main_arg1)) (m ((c : Thread nD τ).loc main_arg4)) :=
  (W4_arr m ρ c 2).trans <| (Reg.final1 (V3 m ρ) c).trans <|
    (congrArg₂ Reg.scaleW (w3_v37 m ρ c) (w3_v27 m ρ c)).trans rfl

/-! ## The sum of the scaled rows into their targets, and the bias row -/

theorem w5_v41 : W5 m ρ c (Proc.devRef .tc main_v41) = Cert.ReferenceIdeal.Read.val_main_v42 (F := Ideal) (m ((c : Thread nD τ).loc main_arg0)) (m ((c : Thread nD τ).loc main_arg1)) (m ((c : Thread nD τ).loc main_arg4)) := by
  show StableHlo.after hostOps2 (W4 m ρ c) (Proc.devRef .tc main_v41) = _
  dsimp only [hostOps2]
  after_results_simp
  rw [w4_v38 m ρ c, Carry.keep4 m ρ c main_v6 (by decide), w1_v6 m ρ c]
  rfl

theorem w5_v44 : W5 m ρ c (Proc.devRef .tc main_v44) = Cert.ReferenceIdeal.Read.val_main_v45 (F := Ideal) (m ((c : Thread nD τ).loc main_arg5)) := by
  show StableHlo.after hostOps2 (W4 m ρ c) (Proc.devRef .tc main_v44) = _
  dsimp only [hostOps2]
  after_results_simp
  rw [Carry.keep4 m ρ c main_arg5 (by decide), Carry.host0_keep m ρ c main_arg5 (by decide)]
  exact (Glue.row64 _).trans rfl

/-! ## Region 2: plus the bias, clamped below at zero -/

theorem w6_v45 : W6 m ρ c (Proc.devRef .tc main_v45) = Cert.ReferenceIdeal.Read.val_main_v48 (F := Ideal) (m ((c : Thread nD τ).loc main_arg0)) (m ((c : Thread nD τ).loc main_arg1)) (m ((c : Thread nD τ).loc main_arg4)) (m ((c : Thread nD τ).loc main_arg5)) :=
  (W6_arr m ρ c 2).trans <| (Reg.final2 (V5 m ρ) c).trans <|
    (congrArg₂ Reg.biasW (w5_v41 m ρ c) (w5_v44 m ρ c)).trans rfl

end Cert.KernelIdeal.Stages

end
-- ==== Proof.StageB.lean ====
/-
  Layer 2 of the idealized kernel, boundary by boundary, each buffer stated as the reference's stage in the arguments:
  the same five steps as layer 1 — weights, product, gather, scaling, sum into targets, bias and clamp — applied to
  layer 1's output, with the edge sources, targets and coefficients read as the first host stretch left them.
-/
import proofs.«134593_j59777354826141_2_alg».proof.Proof.StageA
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The layer's weight matrix; the previous layer's output is still there -/

theorem w7_v47 : W7 m ρ c (Proc.devRef .tc main_v47) = Cert.ReferenceIdeal.Read.val_main_v50 (F := Ideal) (m ((c : Thread nD τ).loc main_arg4)) := by
  show StableHlo.after hostOps3 (W6 m ρ c) (Proc.devRef .tc main_v47) = _
  dsimp only [hostOps3]
  after_results_simp
  rw [Carry.keep6 m ρ c main_arg4 (by decide), Carry.host0_keep m ρ c main_arg4 (by decide)]
  rfl

theorem w7_v45 : W7 m ρ c (Proc.devRef .tc main_v45) = Cert.ReferenceIdeal.Read.val_main_v48 (F := Ideal) (m ((c : Thread nD τ).loc main_arg0)) (m ((c : Thread nD τ).loc main_arg1)) (m ((c : Thread nD τ).loc main_arg4)) (m ((c : Thread nD τ).loc main_arg5)) :=
  (StableHlo.after_of_forall_not_mem (b := Proc.devRef .tc main_v45) hostOps3 _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (w6_v45 m ρ c)

/-! ## Region 3: the features times the weights -/

theorem w8_v48 : W8 m ρ c (Proc.devRef .tc main_v48) = Cert.ReferenceIdeal.Read.val_main_v51 (F := Ideal) (m ((c : Thread nD τ).loc main_arg0)) (m ((c : Thread nD τ).loc main_arg1)) (m ((c : Thread nD τ).loc main_arg4)) (m ((c : Thread nD τ).loc main_arg5)) :=
  (W8_arr m ρ c 2).trans <| (Reg.final3 (V7 m ρ) c).trans <|
    (congrArg₂ Reg.matW (w7_v45 m ρ c) (w7_v47 m ρ c)).trans rfl

/-! ## The gather of the source rows -/

theorem w9_v55 : W9 m ρ c (Proc.devRef .tc main_v55) = Cert.ReferenceIdeal.Read.val_main_v58 (F := Ideal) (m ((c : Thread nD τ).loc main_arg0)) (m ((c : Thread nD τ).loc main_arg1)) (m ((c : Thread nD τ).loc main_arg4)) (m ((c : Thread nD τ).loc main_arg5)) := by
  show StableHlo.after hostOps4 (W8 m ρ c) (Proc.devRef .tc main_v55) = _
  dsimp only [hostOps4]
  after_results_simp
  rw [w8_v48 m ρ c, Carry.keep8 m ρ c main_v3 (by decide), w1_v3 m ρ c]
  rfl

/-! ## Region 4: each gathered row times its edge's coefficient -/

theorem w9_v27 : W9 m ρ c (Proc.devRef .tc main_v27) = Cert.ReferenceIdeal.Read.val_main_v27 (F := Ideal) (m ((c : Thread nD τ).loc main_arg1)) :=
  (Carry.keep9 m ρ c main_v27 (by decide)).trans (w1_v27 m ρ c)

theorem w10_v56 : W10 m ρ c (Proc.devRef .tc main_v56) = Cert.ReferenceIdeal.Read.val_main_v60 (F := Ideal) (m ((c : Thread nD τ).loc main_arg0)) (m ((c : Thread nD τ).loc main_arg1)) (m ((c : Thread nD τ).loc main_arg4)) (m ((c : Thread nD τ).loc main_arg5)) :=
  (W10_arr m ρ c 2).trans <| (Reg.final4 (V9 m ρ) c).trans <|
    (congrArg₂ Reg.scaleW (w9_v55 m ρ c) (w9_v27 m ρ c)).trans rfl

/-! ## The sum of the scaled rows into their targets, and the bias row -/

theorem w11_v59 : W11 m ρ c (Proc.devRef .tc main_v59) = Cert.ReferenceIdeal.Read.val_main_v63 (F := Ideal) (m ((c : Thread nD τ).loc main_arg0)) (m ((c : Thread nD τ).loc main_arg1)) (m ((c : Thread nD τ).loc main_arg4)) (m ((c : Thread nD τ).loc main_arg5)) := by
  show StableHlo.after hostOps5 (W10 m ρ c) (Proc.devRef .tc main_v59) = _
  dsimp only [hostOps5]
  after_results_simp
  rw [w10_v56 m ρ c, Carry.keep10 m ρ c main_v6 (by decide), w1_v6 m ρ c]
  rfl

theorem w11_v62 : W11 m ρ c (Proc.devRef .tc main_v62) = Cert.ReferenceIdeal.Read.val_main_v66 (F := Ideal) (m ((c : Thread nD τ).loc main_arg5)) := by
  show StableHlo.after hostOps5 (W10 m ρ c) (Proc.devRef .tc main_v62) = _
  dsimp only [hostOps5]
  after_results_simp
  rw [Carry.keep10 m ρ c main_arg5 (by decide), Carry.host0_keep m ρ c main_arg5 (by decide)]
  exact (Glue.row64 _).trans rfl

/-! ## Region 5: plus the bias, clamped below at zero -/

theorem w12_v63 : W12 m ρ c (Proc.devRef .tc main_v63) = Cert.ReferenceIdeal.Read.val_main_v69 (F := Ideal) (m ((c : Thread nD τ).loc main_arg0)) (m ((c : Thread nD τ).loc main_arg1)) (m ((c : Thread nD τ).loc main_arg4)) (m ((c : Thread nD τ).loc main_arg5)) :=
  (W12_arr m ρ c 2).trans <| (Reg.final5 (V11 m ρ) c).trans <|
    (congrArg₂ Reg.biasW (w11_v59 m ρ c) (w11_v62 m ρ c)).trans rfl

end Cert.KernelIdeal.Stages

end
-- ==== Proof.StageC.lean ====
/-
  Layer 3 of the idealized kernel, boundary by boundary, each buffer stated as the reference's stage in the arguments:
  the same five steps once more, applied to layer 2's output.
-/
import proofs.«134593_j59777354826141_2_alg».proof.Proof.StageB
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The layer's weight matrix; the previous layer's output is still there -/

theorem w13_v65 : W13 m ρ c (Proc.devRef .tc main_v65) = Cert.ReferenceIdeal.Read.val_main_v71 (F := Ideal) (m ((c : Thread nD τ).loc main_arg4)) := by
  show StableHlo.after hostOps6 (W12 m ρ c) (Proc.devRef .tc main_v65) = _
  dsimp only [hostOps6]
  after_results_simp
  rw [Carry.keep12 m ρ c main_arg4 (by decide), Carry.host0_keep m ρ c main_arg4 (by decide)]
  rfl

theorem w13_v63 : W13 m ρ c (Proc.devRef .tc main_v63) = Cert.ReferenceIdeal.Read.val_main_v69 (F := Ideal) (m ((c : Thread nD τ).loc main_arg0)) (m ((c : Thread nD τ).loc main_arg1)) (m ((c : Thread nD τ).loc main_arg4)) (m ((c : Thread nD τ).loc main_arg5)) :=
  (StableHlo.after_of_forall_not_mem (b := Proc.devRef .tc main_v63) hostOps6 _ (List.forall_iff_forall_mem.mp (by
      simp only [hostOps6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (w12_v63 m ρ c)

/-! ## Region 6: the features times the weights -/

theorem w14_v66 : W14 m ρ c (Proc.devRef .tc main_v66) = Cert.ReferenceIdeal.Read.val_main_v72 (F := Ideal) (m ((c : Thread nD τ).loc main_arg0)) (m ((c : Thread nD τ).loc main_arg1)) (m ((c : Thread nD τ).loc main_arg4)) (m ((c : Thread nD τ).loc main_arg5)) :=
  (W14_arr m ρ c 2).trans <| (Reg.final6 (V13 m ρ) c).trans <|
    (congrArg₂ Reg.matW (w13_v63 m ρ c) (w13_v65 m ρ c)).trans rfl

/-! ## The gather of the source rows -/

theorem w15_v73 : W15 m ρ c (Proc.devRef .tc main_v73) = Cert.ReferenceIdeal.Read.val_main_v79 (F := Ideal) (m ((c : Thread nD τ).loc main_arg0)) (m ((c : Thread nD τ).loc main_arg1)) (m ((c : Thread nD τ).loc main_arg4)) (m ((c : Thread nD τ).loc main_arg5)) := by
  show StableHlo.after hostOps7 (W14 m ρ c) (Proc.devRef .tc main_v73) = _
  dsimp only [hostOps7]
  after_results_simp
  rw [w14_v66 m ρ c, Carry.keep14 m ρ c main_v3 (by decide), w1_v3 m ρ c]
  rfl

/-! ## Region 7: each gathered row times its edge's coefficient -/

theorem w15_v27 : W15 m ρ c (Proc.devRef .tc main_v27) = Cert.ReferenceIdeal.Read.val_main_v27 (F := Ideal) (m ((c : Thread nD τ).loc main_arg1)) :=
  (Carry.keep15 m ρ c main_v27 (by decide)).trans (w1_v27 m ρ c)

theorem w16_v74 : W16 m ρ c (Proc.devRef .tc main_v74) = Cert.ReferenceIdeal.Read.val_main_v81 (F := Ideal) (m ((c : Thread nD τ).loc main_arg0)) (m ((c : Thread nD τ).loc main_arg1)) (m ((c : Thread nD τ).loc main_arg4)) (m ((c : Thread nD τ).loc main_arg5)) :=
  (W16_arr m ρ c 2).trans <| (Reg.final7 (V15 m ρ) c).trans <|
    (congrArg₂ Reg.scaleW (w15_v73 m ρ c) (w15_v27 m ρ c)).trans rfl

/-! ## The sum of the scaled rows into their targets, and the bias row -/

theorem w17_v77 : W17 m ρ c (Proc.devRef .tc main_v77) = Cert.ReferenceIdeal.Read.val_main_v84 (F := Ideal) (m ((c : Thread nD τ).loc main_arg0)) (m ((c : Thread nD τ).loc main_arg1)) (m ((c : Thread nD τ).loc main_arg4)) (m ((c : Thread nD τ).loc main_arg5)) := by
  show StableHlo.after hostOps8 (W16 m ρ c) (Proc.devRef .tc main_v77) = _
  dsimp only [hostOps8]
  after_results_simp
  rw [w16_v74 m ρ c, Carry.keep16 m ρ c main_v6 (by decide), w1_v6 m ρ c]
  rfl

theorem w17_v80 : W17 m ρ c (Proc.devRef .tc main_v80) = Cert.ReferenceIdeal.Read.val_main_v87 (F := Ideal) (m ((c : Thread nD τ).loc main_arg5)) := by
  show StableHlo.after hostOps8 (W16 m ρ c) (Proc.devRef .tc main_v80) = _
  dsimp only [hostOps8]
  after_results_simp
  rw [Carry.keep16 m ρ c main_arg5 (by decide), Carry.host0_keep m ρ c main_arg5 (by decide)]
  exact (Glue.row64 _).trans rfl

/-! ## Region 8: plus the bias, clamped below at zero -/

theorem w18_v81 : W18 m ρ c (Proc.devRef .tc main_v81) = Cert.ReferenceIdeal.Read.val_main_v90 (F := Ideal) (m ((c : Thread nD τ).loc main_arg0)) (m ((c : Thread nD τ).loc main_arg1)) (m ((c : Thread nD τ).loc main_arg4)) (m ((c : Thread nD τ).loc main_arg5)) :=
  (W18_arr m ρ c 2).trans <| (Reg.final8 (V17 m ρ) c).trans <|
    (congrArg₂ Reg.biasW (w17_v77 m ρ c) (w17_v80 m ρ c)).trans rfl

end Cert.KernelIdeal.Stages

end
-- ==== Proof.RegHead.lean ====
/-
  The readout region of the kernel: a grid of one point whose every window's block is its whole array, so after the
  region the output array is the body's stored value at the six arrays the region entered with.
-/
import proofs.«134593_j59777354826141_2_alg».proof.Proof.Gen.KernelIdeal.Frame
import Idealize.ShloMosaic.PureOps.Ideal
import Idealize.ShloMosaic.Lib.ValueIdx
import Idealize.ShloMosaic.Lib.Pipeline.Value

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The readout as the body computes it: sums, counts (as a column), first weights, first bias (as a row), second
    weights, second bias (as a row). -/
abbrev headW (s : S64x64.Idx → Elt Ideal .f32) (cnt1 : S64x1.Idx → Elt Ideal .f32) (w1 : S64x128.Idx → Elt Ideal .f32)
    (b1r : S1x128.Idx → Elt Ideal .f32) (w2 : S128x10.Idx → Elt Ideal .f32) (b2r : S1x10.Idx → Elt Ideal .f32) : S64x10.Idx → Elt Ideal .f32 :=
  k9_pay1 (F := Ideal) cnt1 s w1 b1r w2 b2r

theorem hz2' : (![0, 0] : Fin 2 → Nat) = fun _ => 0 := funext fun a => by fin_cases a <;> rfl

/-- Every window's block index at the one point is the origin. -/
theorem idx9 : ∀ t : Fin cfg9.N, win9_0.index t (0 : Fin 2) = 0
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = 0
    ∧ win9_5.index t (1 : Fin 2) = 0
    ∧ win9_6.index t (0 : Fin 2) = 0
    ∧ win9_6.index t (1 : Fin 2) = 0 :=
  (by decide +kernel : ∀ t : Fin grid9.N, _)

/-- Input window 0's block at the point is its whole array. -/
theorem blk9_0 (c : Dev nD) (t : Fin cfg9.N) : iblk9 V c 0 t = V c main_v98 := by
  obtain ⟨e0, e1, e2, e3, e4, e5, e6, e7, e8, e9, e10, e11, e12, e13⟩ := idx9 t
  funext y
  show V c main_v98 (((cfg9.win 0).blk t).view.emb y) = V c main_v98 y
  refine congrArg _ (funext fun a => Fin.ext ?_)
  match a with
  | ⟨0, _⟩ => show win9_0.index t (0 : Fin 2) * 64 + 1 * (y 0).val = (y 0).val; omega
  | ⟨1, _⟩ => show win9_0.index t (1 : Fin 2) * 64 + 1 * (y 1).val = (y 1).val; omega

/-- Input window 1's block at the point is its whole array. -/
theorem blk9_1 (c : Dev nD) (t : Fin cfg9.N) : iblk9 V c 1 t = V c main_v103 := by
  obtain ⟨e0, e1, e2, e3, e4, e5, e6, e7, e8, e9, e10, e11, e12, e13⟩ := idx9 t
  funext y
  show V c main_v103 (((cfg9.win 1).blk t).view.emb y) = V c main_v103 y
  refine congrArg _ (funext fun a => Fin.ext ?_)
  match a with
  | ⟨0, _⟩ => show win9_1.index t (0 : Fin 2) * 64 + 1 * (y 0).val = (y 0).val; omega
  | ⟨1, _⟩ => show win9_1.index t (1 : Fin 2) * 1 + 1 * (y 1).val = (y 1).val; omega

/-- Input window 2's block at the point is its whole array. -/
theorem blk9_2 (c : Dev nD) (t : Fin cfg9.N) : iblk9 V c 2 t = V c main_arg6 := by
  obtain ⟨e0, e1, e2, e3, e4, e5, e6, e7, e8, e9, e10, e11, e12, e13⟩ := idx9 t
  funext y
  show V c main_arg6 (((cfg9.win 2).blk t).view.emb y) = V c main_arg6 y
  refine congrArg _ (funext fun a => Fin.ext ?_)
  match a with
  | ⟨0, _⟩ => show win9_2.index t (0 : Fin 2) * 64 + 1 * (y 0).val = (y 0).val; omega
  | ⟨1, _⟩ => show win9_2.index t (1 : Fin 2) * 128 + 1 * (y 1).val = (y 1).val; omega

/-- Input window 3's block at the point is its whole array. -/
theorem blk9_3 (c : Dev nD) (t : Fin cfg9.N) : iblk9 V c 3 t = V c main_v104 := by
  obtain ⟨e0, e1, e2, e3, e4, e5, e6, e7, e8, e9, e10, e11, e12, e13⟩ := idx9 t
  funext y
  show V c main_v104 (((cfg9.win 3).blk t).view.emb y) = V c main_v104 y
  refine congrArg _ (funext fun a => Fin.ext ?_)
  match a with
  | ⟨0, _⟩ => show win9_3.index t (0 : Fin 2) * 1 + 1 * (y 0).val = (y 0).val; omega
  | ⟨1, _⟩ => show win9_3.index t (1 : Fin 2) * 128 + 1 * (y 1).val = (y 1).val; omega

/-- Input window 4's block at the point is its whole array. -/
theorem blk9_4 (c : Dev nD) (t : Fin cfg9.N) : iblk9 V c 4 t = V c main_arg8 := by
  obtain ⟨e0, e1, e2, e3, e4, e5, e6, e7, e8, e9, e10, e11, e12, e13⟩ := idx9 t
  funext y
  show V c main_arg8 (((cfg9.win 4).blk t).view.emb y) = V c main_arg8 y
  refine congrArg _ (funext fun a => Fin.ext ?_)
  match a with
  | ⟨0, _⟩ => show win9_4.index t (0 : Fin 2) * 128 + 1 * (y 0).val = (y 0).val; omega
  | ⟨1, _⟩ => show win9_4.index t (1 : Fin 2) * 10 + 1 * (y 1).val = (y 1).val; omega

/-- Input window 5's block at the point is its whole array. -/
theorem blk9_5 (c : Dev nD) (t : Fin cfg9.N) : iblk9 V c 5 t = V c main_v105 := by
  obtain ⟨e0, e1, e2, e3, e4, e5, e6, e7, e8, e9, e10, e11, e12, e13⟩ := idx9 t
  funext y
  show V c main_v105 (((cfg9.win 5).blk t).view.emb y) = V c main_v105 y
  refine congrArg _ (funext fun a => Fin.ext ?_)
  match a with
  | ⟨0, _⟩ => show win9_5.index t (0 : Fin 2) * 1 + 1 * (y 0).val = (y 0).val; omega
  | ⟨1, _⟩ => show win9_5.index t (1 : Fin 2) * 10 + 1 * (y 1).val = (y 1).val; omega

/-- What the one point writes back is the whole readout of the six arrays. -/
theorem flushed9 (c : Dev nD) (t : Fin cfg9.N) :
    (dat9 V c).flushed 6 t = ((cfg9.win 6).blk t).view.read (Elt Ideal)
      (headW (V c main_v98) (V c main_v103) (V c main_arg6) (V c main_v104) (V c main_arg8) (V c main_v105)) := by
  show (cfg9.win 6).cut (grid9.coords t) ((dat9 V c).after 6 t) = _
  rw [after9_6, blk9_0 V c t, blk9_1 V c t, blk9_2 V c t, blk9_3 V c t, blk9_4 V c t, blk9_5 V c t]
  unfold out9_6
  rw [View.canon_unit_zero hz2']
  simp only [View.ld_unit_zero (S := S64x64) hz2', View.ld_unit_zero (S := S64x1) hz2', View.ld_unit_zero (S := S64x128) hz2', View.ld_unit_zero (S := S1x128) hz2', View.ld_unit_zero (S := S128x10) hz2', View.ld_unit_zero (S := S1x10) hz2']
  obtain ⟨e0, e1, e2, e3, e4, e5, e6, e7, e8, e9, e10, e11, e12, e13⟩ := idx9 t
  funext j
  show k9_pay1 (F := Ideal) (V c main_v103) (V c main_v98) (V c main_arg6) (V c main_v104) (V c main_arg8) (V c main_v105) j
    = k9_pay1 (F := Ideal) (V c main_v103) (V c main_v98) (V c main_arg6) (V c main_v104) (V c main_arg8) (V c main_v105) (((cfg9.win 6).blk t).view.emb j)
  refine congrArg _ (funext fun a => Fin.ext ?_)
  match a with
  | ⟨0, _⟩ => show (j 0).val = win9_6.index t (0 : Fin 2) * 64 + 1 * (j 0).val; omega
  | ⟨1, _⟩ => show (j 1).val = win9_6.index t (1 : Fin 2) * 10 + 1 * (j 1).val; omega

theorem mem_blk9 (t : Fin cfg9.N) (i : S64x10.Idx) :
    i ∈ ((cfg9.win 6).blk t).view.set ↔ ∀ a : Fin 2, win9_6.index t a * S64x10.size a ≤ (i a).val ∧ (i a).val < win9_6.index t a * S64x10.size a + S64x10.size a := by
  show i ∈ ((View.whole main_v106).slice (win9_6.rect t)).set ↔ _
  rw [View.set_slice_whole, Rect.mem_set_unit]
  exact Iff.rfl

/-- The one block is the whole output array. -/
theorem cover9 (i : S64x10.Idx) :
    ∃ t : Fin cfg9.N, (cfg9.win 6).flush t = true ∧ i ∈ ((cfg9.win 6).blk t).view.set := by
  have hi0 : (i 0).val < 64 := (i 0).isLt
  have hi1 : (i 1).val < 10 := (i 1).isLt
  let t : Fin cfg9.N := ⟨0, by rw [show cfg9.N = 1 from N_9]; omega⟩
  obtain ⟨e0, e1, e2, e3, e4, e5, e6, e7, e8, e9, e10, e11, e12, e13⟩ := idx9 t
  refine ⟨t, flush9_6 t, ?_⟩
  rw [mem_blk9]
  intro a
  match a with
  | ⟨0, _⟩ => show win9_6.index t (0 : Fin 2) * 64 ≤ (i 0).val ∧ (i 0).val < win9_6.index t (0 : Fin 2) * 64 + 64; omega
  | ⟨1, _⟩ => show win9_6.index t (1 : Fin 2) * 10 ≤ (i 1).val ∧ (i 1).val < win9_6.index t (1 : Fin 2) * 10 + 10; omega

/-- After the readout region its output array is the readout of the six arrays it entered with. -/
theorem final9 (c : Dev nD) :
    (dat9 V c).arrAt 6 cfg9.N = headW (V c main_v98) (V c main_v103) (V c main_arg6) (V c main_v104) (V c main_arg8) (V c main_v105) :=
  (dat9 V c).arrAt_eq_of_cover 6 _ (fun t _ => flushed9 V c t) (cover9)

end Cert.KernelIdeal.Reg

end
-- ==== Proof.RefHead.lean ====
/-
  The reference's readout head as one function of its six operands: the per-graph sums divided by max(count, 1), times the
  first weight matrix, plus the first bias, clamped below at zero, times the second weight matrix, plus the second bias —
  written with the reference's own host operations in its own order.
-/
import proofs.«134593_j59777354826141_2_alg».proof.Proof.Gen.ReferenceIdeal

set_option maxRecDepth 16384

noncomputable section

namespace Cert.ReferenceIdeal.Whole

open Cert.ReferenceIdeal Cert.ReferenceIdeal.Gen Idealize.ShloMosaic

variable {F : FTy → Type} [FloatOps F]

def refHead (s : FVec F S64x64 .f32) (cnt : FVec F S64 .f32) (w1 : FVec F S64x128 .f32) (b1 : FVec F S128 .f32)
    (w2 : FVec F S128x10 .f32) (b2 : FVec F S10 .f32) : FVec F S64x10 .f32 :=
  addf (Host.dotGeneral dot_S64x128_S128x10_S64x10_1_0_0_1_n_n none
      (maximumf (addf (Host.dotGeneral dot_S64x64_S64x128_S64x128_1_0_0_1_n_n none
            (Host.divf s (broadcastInDim S64x64 ![0, 1] bcast_S64x1_S64x64_0_1 (broadcastInDim S64x1 ![0] bcast_S64_S64x1_0
              (maximumf cnt (broadcastInDim S64 ![] bcast_S_S64 (constant S_ .f32 0x3F800000#32)))))) w1)
          (broadcastInDim S64x128 ![0, 1] bcast_S1x128_S64x128_0_1 (broadcastInDim S1x128 ![1] bcast_S128_S1x128_1 b1)))
        (broadcastInDim S64x128 ![] bcast_S_S64x128 (constant S_ .f32 0x00000000#32))) w2)
    (broadcastInDim S64x10 ![0, 1] bcast_S1x10_S64x10_0_1 (broadcastInDim S1x10 ![1] bcast_S10_S1x10_1 b2))

end Cert.ReferenceIdeal.Whole

end
-- ==== Proof.Head.lean ====
/-
  The kernel's readout body, on the operands its host glue prepares (the counts reshaped to a column, each bias reshaped
  to a row), is the reference's readout of the same data, at the ideal instance: a product into a zero accumulator is
  the plain contraction; the bf16 format changes are the identity; the column of max(count, 1) spread along the rows and
  each bias row spread down the rows are the same arrays whichever way they were laid out; the division and both clamps
  are the same operations in the same order.
-/
import proofs.«134593_j59777354826141_2_alg».proof.Proof.Gen.KernelIdeal.Skeleton
import proofs.«134593_j59777354826141_2_alg».proof.Proof.RefHead
import Idealize.ShloMosaic.Lib.ValueIdx
import Idealize.ShloMosaic.Lib.Pipeline.Value
import Idealize.ShloMosaic.PureOps.Ideal.Laws

set_option maxRecDepth 16384

noncomputable section

namespace Cert.KernelIdeal.Head

open Cert.KernelIdeal Cert.KernelIdeal.Gen Idealize.ShloMosaic Idealize.ShloMosaic.ValueIdx
open scoped BigOperators

/-- The first product of the readout: into the zero accumulator it is the host's contraction. -/
theorem mm1 (a : FVec Ideal S64x64 .f32) (b : FVec Ideal S64x128 .f32) :
    matmul dot_S64x64_S64x128_S64x128_1_0_0_1_n_n none (truncf .bf16 a bitsLt_bf16_f32) (truncf .bf16 b bitsLt_bf16_f32) (constant (F := Ideal) S64x128 .f32 0x00000000#32)
      = Host.dotGeneral (F := Ideal) Cert.ReferenceIdeal.dot_S64x64_S64x128_S64x128_1_0_0_1_n_n none a b := by
  funext j
  refine (Ideal.matmul_constant_zero_apply dot_S64x64_S64x128_S64x128_1_0_0_1_n_n none _ _ j).trans ?_
  simp only [Host.dotGeneral]
  exact (Ideal.dotGeneral_apply Cert.ReferenceIdeal.dot_S64x64_S64x128_S64x128_1_0_0_1_n_n none _ a b j).symm

/-- The second product of the readout, likewise. -/
theorem mm2 (a : FVec Ideal S64x128 .f32) (b : FVec Ideal S128x10 .f32) :
    matmul dot_S64x128_S128x10_S64x10_1_0_0_1_n_n none (truncf .bf16 a bitsLt_bf16_f32) (truncf .bf16 b bitsLt_bf16_f32) (constant (F := Ideal) S64x10 .f32 0x00000000#32)
      = Host.dotGeneral (F := Ideal) Cert.ReferenceIdeal.dot_S64x128_S128x10_S64x10_1_0_0_1_n_n none a b := by
  funext j
  refine (Ideal.matmul_constant_zero_apply dot_S64x128_S128x10_S64x10_1_0_0_1_n_n none _ _ j).trans ?_
  simp only [Host.dotGeneral]
  exact (Ideal.dotGeneral_apply Cert.ReferenceIdeal.dot_S64x128_S128x10_S64x10_1_0_0_1_n_n none _ a b j).symm

/-- The divisor: max(count, 1) of graph p at every entry (p, q), whether the counts were first reshaped to a column and
    clamped there, or clamped as a vector and then spread. -/
theorem denom_eq (cnt : FVec Ideal S64 .f32) :
    broadcastTo S64x64 (maximumf (shapeCast S64x1 cnt shapeCasts_S64_S64x1) (broadcast S64x1 (Scalar.ofBits (F := Ideal) .f32 0x3F800000#32))) broadcasts_S64x1_S64x64
      = broadcastInDim Cert.ReferenceIdeal.S64x64 ![0, 1] Cert.ReferenceIdeal.Gen.bcast_S64x1_S64x64_0_1 (broadcastInDim Cert.ReferenceIdeal.S64x1 ![0] Cert.ReferenceIdeal.Gen.bcast_S64_S64x1_0
          (maximumf cnt (broadcastInDim Cert.ReferenceIdeal.S64 ![] Cert.ReferenceIdeal.Gen.bcast_S_S64 (constant (F := Ideal) Cert.ReferenceIdeal.S_ .f32 0x3F800000#32)))) := by
  funext j
  obtain ⟨p, q, rfl⟩ : ∃ (p : Fin 64) (q : Fin 64), j = ix2 p q := ⟨j 0, j 1, eq_ix2 j⟩
  have l1 := broadcastTo_apply (maximumf (shapeCast S64x1 cnt shapeCasts_S64_S64x1) (broadcast S64x1 (Scalar.ofBits (F := Ideal) .f32 0x3F800000#32))) broadcasts_S64x1_S64x64 (ix2 p q) (ix2 p (0 : Fin 1)) (fun a => match a with
      | ⟨0, _⟩ => by show p.val = if (64 : Nat) = 1 then 0 else p.val; rw [if_neg (by decide)]
      | ⟨1, _⟩ => by show 0 = if (1 : Nat) = 1 then 0 else q.val; rw [if_pos rfl])
  have l2 := shapeCast_apply cnt shapeCasts_S64_S64x1 (ix2 p (0 : Fin 1)) (ix1 p) (by
    rw [Shape.rowMajor_val_one, Shape.rowMajor_val_two]
    show p.val = p.val * 1 + 0
    omega)
  have r1 := broadcastInDim_apply _ Cert.ReferenceIdeal.Gen.bcast_S64x1_S64x64_0_1 (broadcastInDim Cert.ReferenceIdeal.S64x1 ![0] Cert.ReferenceIdeal.Gen.bcast_S64_S64x1_0
          (maximumf cnt (broadcastInDim Cert.ReferenceIdeal.S64 ![] Cert.ReferenceIdeal.Gen.bcast_S_S64 (constant (F := Ideal) Cert.ReferenceIdeal.S_ .f32 0x3F800000#32)))) (ix2 p q) (ix2 p (0 : Fin 1)) (fun a => match a with
      | ⟨0, _⟩ => by show p.val = if (64 : Nat) = 1 then 0 else p.val; rw [if_neg (by decide)]
      | ⟨1, _⟩ => by show 0 = if (1 : Nat) = 1 then 0 else q.val; rw [if_pos rfl])
  have r2 := broadcastInDim_apply _ Cert.ReferenceIdeal.Gen.bcast_S64_S64x1_0
          (maximumf cnt (broadcastInDim Cert.ReferenceIdeal.S64 ![] Cert.ReferenceIdeal.Gen.bcast_S_S64 (constant (F := Ideal) Cert.ReferenceIdeal.S_ .f32 0x3F800000#32))) (ix2 p (0 : Fin 1)) (ix1 p) (fun a => match a with
      | ⟨0, _⟩ => by show p.val = if (64 : Nat) = 1 then 0 else p.val; rw [if_neg (by decide)])
  have r3 := broadcastInDim_apply _ Cert.ReferenceIdeal.Gen.bcast_S_S64 (constant (F := Ideal) Cert.ReferenceIdeal.S_ .f32 0x3F800000#32) (ix1 p) ix0 (fun a => a.elim0)
  refine l1.trans ?_
  refine Eq.trans ?_ (r1.trans r2).symm
  show max (shapeCast S64x1 cnt shapeCasts_S64_S64x1 (ix2 p (0 : Fin 1))) _ = max (cnt (ix1 p)) _
  rw [l2, r3]
  rfl

/-- The first bias at every row: reshaped to a row and spread down, or spread as a new leading axis and then down. -/
theorem bias1_eq (b : FVec Ideal S128 .f32) :
    broadcastTo S64x128 (shapeCast S1x128 b shapeCasts_S128_S1x128) broadcasts_S1x128_S64x128
      = broadcastInDim Cert.ReferenceIdeal.S64x128 ![0, 1] Cert.ReferenceIdeal.Gen.bcast_S1x128_S64x128_0_1 (broadcastInDim Cert.ReferenceIdeal.S1x128 ![1] Cert.ReferenceIdeal.Gen.bcast_S128_S1x128_1 b) := by
  funext j
  obtain ⟨p, q, rfl⟩ : ∃ (p : Fin 64) (q : Fin 128), j = ix2 p q := ⟨j 0, j 1, eq_ix2 j⟩
  have l1 := broadcastTo_apply (shapeCast S1x128 b shapeCasts_S128_S1x128) broadcasts_S1x128_S64x128 (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])
  have l2 := shapeCast_apply b shapeCasts_S128_S1x128 (ix2 (0 : Fin 1) q) (ix1 q) (by
    rw [Shape.rowMajor_val_one, Shape.rowMajor_val_two]
    show q.val = 0 * 128 + q.val
    omega)
  have r1 := broadcastInDim_apply _ Cert.ReferenceIdeal.Gen.bcast_S1x128_S64x128_0_1 (broadcastInDim Cert.ReferenceIdeal.S1x128 ![1] Cert.ReferenceIdeal.Gen.bcast_S128_S1x128_1 b) (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])
  have r2 := broadcastInDim_apply _ Cert.ReferenceIdeal.Gen.bcast_S128_S1x128_1 b (ix2 (0 : Fin 1) q) (ix1 q) (fun a => match a with
      | ⟨0, _⟩ => by show q.val = if (128 : Nat) = 1 then 0 else q.val; rw [if_neg (by decide)])
  exact (l1.trans l2).trans (r1.trans r2).symm

/-- The second bias at every row, likewise. -/
theorem bias2_eq (b : FVec Ideal S10 .f32) :
    broadcastTo S64x10 (shapeCast S1x10 b shapeCasts_S10_S1x10) broadcasts_S1x10_S64x10
      = broadcastInDim Cert.ReferenceIdeal.S64x10 ![0, 1] Cert.ReferenceIdeal.Gen.bcast_S1x10_S64x10_0_1 (broadcastInDim Cert.ReferenceIdeal.S1x10 ![1] Cert.ReferenceIdeal.Gen.bcast_S10_S1x10_1 b) := by
  funext j
  obtain ⟨p, q, rfl⟩ : ∃ (p : Fin 64) (q : Fin 10), j = ix2 p q := ⟨j 0, j 1, eq_ix2 j⟩
  have l1 := broadcastTo_apply (shapeCast S1x10 b shapeCasts_S10_S1x10) broadcasts_S1x10_S64x10 (ix2 p q) (ix2 (0 : Fin 1) q) (fun a => match a with
      | ⟨0, _⟩ => by show 0 = if (1 : Nat) = 1 then 0 else p.val; rw [if_pos rfl]
      | ⟨1, _⟩ => by show q.val = if (10 : Nat) = 1 then 0 else q.val; rw [if_neg (by decide)])
  have l2 := shapeCast_apply b shapeCasts_S10_S1x10 (ix2 (0 : Fin 1) q) (ix1 q) (by
    rw [Shape.rowMajor_val_one, Shape.rowMajor_val_two]
    show q.val = 0 * 10 + q.val
    omega)
  have r1 := broadcastInDim_apply _ Cert.ReferenceIdeal.Gen.bcast_S1x10_S64x10_0_1 (broadcastInDim Cert.ReferenceIdeal.S1x10 ![1] Cert.ReferenceIdeal.Gen.bcast_S10_S1x10_1 b) (ix2 p q) (ix2 (0 : Fin 1) q) (fun a => match a with
      | ⟨0, _⟩ => by show 0 = if (1 : Nat) = 1 then 0 else p.val; rw [if_pos rfl]
      | ⟨1, _⟩ => by show q.val = if (10 : Nat) = 1 then 0 else q.val; rw [if_neg (by decide)])
  have r2 := broadcastInDim_apply _ Cert.ReferenceIdeal.Gen.bcast_S10_S1x10_1 b (ix2 (0 : Fin 1) q) (ix1 q) (fun a => match a with
      | ⟨0, _⟩ => by show q.val = if (10 : Nat) = 1 then 0 else q.val; rw [if_neg (by decide)])
  exact (l1.trans l2).trans (r1.trans r2).symm

/-- The zero the hidden layer is clamped against. -/
theorem zero_eq : broadcast S64x128 (Scalar.ofBits (F := Ideal) .f32 0x00000000#32)
    = broadcastInDim Cert.ReferenceIdeal.S64x128 ![] Cert.ReferenceIdeal.Gen.bcast_S_S64x128 (constant (F := Ideal) Cert.ReferenceIdeal.S_ .f32 0x00000000#32) := by
  funext j
  exact (broadcastInDim_apply _ Cert.ReferenceIdeal.Gen.bcast_S_S64x128 (constant (F := Ideal) Cert.ReferenceIdeal.S_ .f32 0x00000000#32) j ix0 (fun a => a.elim0)).symm

/-- The readout body on the prepared operands is the reference's readout. -/
theorem head_eq (s : FVec Ideal S64x64 .f32) (cnt : FVec Ideal S64 .f32) (w1 : FVec Ideal S64x128 .f32) (b1 : FVec Ideal S128 .f32)
    (w2 : FVec Ideal S128x10 .f32) (b2 : FVec Ideal S10 .f32) :
    k9_pay1 (F := Ideal) (shapeCast S64x1 cnt shapeCasts_S64_S64x1) s w1 (shapeCast S1x128 b1 shapeCasts_S128_S1x128) w2 (shapeCast S1x10 b2 shapeCasts_S10_S1x10)
      = Cert.ReferenceIdeal.Whole.refHead (F := Ideal) s cnt w1 b1 w2 b2 := by
  unfold k9_pay1 Cert.ReferenceIdeal.Whole.refHead
  simp only [shapeCast_self]
  rw [mm2, mm1, denom_eq, bias1_eq, bias2_eq, zero_eq]
  rfl

end Cert.KernelIdeal.Head

end
-- ==== Proof.StageD.lean ====
/-
  The readout of the idealized kernel: the host gathers the selected nodes' rows of layer 3's output and their graph
  numbers, sums the rows and counts the nodes per graph, and reshapes the counts to a column and the two biases to rows;
  the last region divides each graph's sum by max(count, 1) and applies the two dense layers. Stated as the reference's
  result stage in the ten arguments.
-/
import proofs.«134593_j59777354826141_2_alg».proof.Proof.StageC
import proofs.«134593_j59777354826141_2_alg».proof.Proof.RegHead
import proofs.«134593_j59777354826141_2_alg».proof.Proof.Head
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the last host stretch -/

/-- The per-graph sums of the selected nodes' rows. -/
theorem w19_v98 : W19 m ρ c (Proc.devRef .tc main_v98) = Cert.ReferenceIdeal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps9 (W18 m ρ c) (Proc.devRef .tc main_v98) = _
  dsimp only [hostOps9]
  after_results_simp
  rw [w18_v81 m ρ c, Carry.keep18 m ρ c main_arg2 (by decide), Carry.host0_keep m ρ c main_arg2 (by decide), Carry.keep18 m ρ c main_arg3 (by decide), Carry.host0_keep m ρ c main_arg3 (by decide)]
  rfl

/-- The per-graph counts of the selected nodes, as a column. -/
theorem w19_v103 : W19 m ρ c (Proc.devRef .tc main_v103) = shapeCast S64x1 (Cert.ReferenceIdeal.Read.val_main_v111 (F := Ideal) (m ((c : Thread nD τ).loc main_arg2)) (m ((c : Thread nD τ).loc main_arg3))) shapeCasts_S64_S64x1 := by
  show StableHlo.after hostOps9 (W18 m ρ c) (Proc.devRef .tc main_v103) = _
  dsimp only [hostOps9]
  after_results_simp
  rw [Carry.keep18 m ρ c main_arg2 (by decide), Carry.host0_keep m ρ c main_arg2 (by decide), Carry.keep18 m ρ c main_arg3 (by decide), Carry.host0_keep m ρ c main_arg3 (by decide)]
  rfl

/-- The first bias, as a row. -/
theorem w19_v104 : W19 m ρ c (Proc.devRef .tc main_v104) = shapeCast S1x128 (m ((c : Thread nD τ).loc main_arg7)) shapeCasts_S128_S1x128 := by
  show StableHlo.after hostOps9 (W18 m ρ c) (Proc.devRef .tc main_v104) = _
  dsimp only [hostOps9]
  after_results_simp
  rw [Carry.keep18 m ρ c main_arg7 (by decide), Carry.host0_keep m ρ c main_arg7 (by decide)]
  rfl

/-- The second bias, as a row. -/
theorem w19_v105 : W19 m ρ c (Proc.devRef .tc main_v105) = shapeCast S1x10 (m ((c : Thread nD τ).loc main_arg9)) shapeCasts_S10_S1x10 := by
  show StableHlo.after hostOps9 (W18 m ρ c) (Proc.devRef .tc main_v105) = _
  dsimp only [hostOps9]
  after_results_simp
  rw [Carry.keep18 m ρ c main_arg9 (by decide), Carry.host0_keep m ρ c main_arg9 (by decide)]
  rfl

theorem w19_arg6 : W19 m ρ c (Proc.devRef .tc main_arg6) = (m ((c : Thread nD τ).loc main_arg6)) :=
  (Carry.keep19 m ρ c main_arg6 (by decide)).trans (Carry.host0_keep m ρ c main_arg6 (by decide))
theorem w19_arg8 : W19 m ρ c (Proc.devRef .tc main_arg8) = (m ((c : Thread nD τ).loc main_arg8)) :=
  (Carry.keep19 m ρ c main_arg8 (by decide)).trans (Carry.host0_keep m ρ c main_arg8 (by decide))

/-! ## The readout region -/

/-- The kernel's result buffer at the last boundary is the reference's result stage of the ten arguments. -/
theorem w20_v106 : W20 m ρ c (Proc.devRef .tc main_v106) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W20_arr m ρ c 6).trans ?_
  refine (Reg.final9 (V19 m ρ) c).trans ?_
  show Reg.headW (W19 m ρ c (Proc.devRef .tc main_v98)) (W19 m ρ c (Proc.devRef .tc main_v103)) (W19 m ρ c (Proc.devRef .tc main_arg6))
    (W19 m ρ c (Proc.devRef .tc main_v104)) (W19 m ρ c (Proc.devRef .tc main_arg8)) (W19 m ρ c (Proc.devRef .tc main_v105)) = _
  rw [w19_v98 m ρ c, w19_v103 m ρ c, w19_arg6 m ρ c, w19_v104 m ρ c, w19_arg8 m ρ c, w19_v105 m ρ c]
  exact (Head.head_eq _ _ _ _ _ _).trans rfl

end Cert.KernelIdeal.Stages

end
-- ==== Proof.lean ====
/-
  A three-layer graph convolution with a mean-pooled readout, computed two ways, gives the same [64, 10] result on the
  extended reals.

  Both programs build, on the host, the edge list (the given edges followed by one self-loop per node), each node's degree,
  and each edge's coefficient 1/√deg(source) · 1/√deg(target). A layer maps node features X to
  max(0, A(X·W) + b), where A gathers the source row of every edge, scales it by the edge's coefficient and sums it into
  the edge's target row. The readout gathers the selected nodes' rows, sums them per graph, divides by max(count, 1), and
  applies two dense layers with a clamp at zero between them. The gathers and the scatter-sums are the SAME host
  operations in both programs, applied to the same index arrays, so they are carried along as they are and never opened:
  an out-of-range index is treated alike on both sides.

  The kernel differs from the reference in four places only, and at the ideal instance (bf16 format changes the identity,
  a product into a zero accumulator the plain contraction) each is the same function as the reference's:
  * X·W is computed in ten blocks of 10000 rows; row r of a product depends only on row r of X, so the blocks are the
    blocks of the whole product and they tile it;
  * the scaling by the edge coefficient is computed in 250 blocks of 4400 edges, row by row;
  * bias and clamp are computed in ten blocks of 10000 rows, row by row;
  * the readout runs in one block, on counts reshaped to a column and biases reshaped to rows, which are the arrays the
    reference obtains by broadcasting.
  No law that could fail at an infinity is used (no distributivity, no cancelling), so the finiteness of the inputs is
  never opened.

  The kernel's run is the generated frame's run over its twenty segments with the result buffer read at the last boundary
  as well; the buffer contents at the boundaries are peeled back stage by stage (modules StageA–StageD), each stated as
  the reference's stage of the same name. The two word-level frames and the reference's run are the generated ones.
-/
import proofs.«134593_j59777354826141_2_alg».proof.Defs
import proofs.«134593_j59777354826141_2_alg».proof.Proof.Gen.Kernel
import proofs.«134593_j59777354826141_2_alg».proof.Proof.Gen.Kernel.Frame
import proofs.«134593_j59777354826141_2_alg».proof.Proof.Gen.KernelIdeal
import proofs.«134593_j59777354826141_2_alg».proof.Proof.Gen.KernelIdeal.Frame
import proofs.«134593_j59777354826141_2_alg».proof.Proof.Gen.ReferenceIdeal
import proofs.«134593_j59777354826141_2_alg».proof.Proof.Gen.ReferenceIdeal.Run
import proofs.«134593_j59777354826141_2_alg».proof.Proof.Gen.ReferenceIdeal.Read
import proofs.«134593_j59777354826141_2_alg».proof.Proof.Gen.Pre_finite_inputs
import proofs.«134593_j59777354826141_2_alg».proof.Proof.ResultRun
import proofs.«134593_j59777354826141_2_alg».proof.Proof.StageD
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the reference's result stage of the (agreeing) arguments. -/
theorem algebraic : Cert.algebraic_KernelIdeal_ReferenceIdeal := by
  intro m ρ m' ρ' _ hagree
  refine ⟨fun c => Cert.ReferenceIdeal.Read.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.Stages.w20_v106 m ρ c), (h c).2⟩)
      (Cert.KernelIdeal.ResultRun.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v125_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
